-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S1024x1024 : Shape := ⟨2, ![1024, 1024]⟩
abbrev S128x1024 : Shape := ⟨2, ![128, 1024]⟩
abbrev S1024x128 : Shape := ⟨2, ![1024, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part2 {F : FTy → Type} [FloatOps F] (main_arg7 : FVec F S1024x1024 .f32) (main_arg8 : FVec F S1024 .f32) (main_arg9 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024 .f32) (main_arg5 : FVec F S128x1024 .f32) (main_arg6 : FVec F S1024x128 .f32) (main_arg7 : FVec F S1024x1024 .f32) (main_arg8 : FVec F S1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x1024 .f32) (main_arg1 : FVec F S1024 .f32) (main_arg2 : FVec F S1024 .f32) (main_arg3 : FVec F S1024x1024 .f32) (main_arg4 : FVec F S1024 .f32) (main_arg5 : FVec F S128x1024 .f32) (main_arg6 : FVec F S1024x128 .f32) (main_arg7 : FVec F S1024x1024 .f32) (main_arg8 : FVec F S1024 .f32) (main_arg9 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S8x4096x1024 : Shape := ⟨3, ![8, 4096, 1024]⟩
abbrev S1024 : Shape := ⟨1, ![1024]⟩
abbrev S1024x1024 : Shape := ⟨2, ![1024, 1024]⟩
abbrev S128x1024 : Shape := ⟨2, ![128, 1024]⟩
abbrev S1024x128 : Shape := ⟨2, ![1024, 128]⟩
abbrev S1x1024 : Shape := ⟨2, ![1, 1024]⟩
abbrev S8x4096x128 : Shape := ⟨3, ![8, 4096, 128]⟩
abbrev S1x512x1024 : Shape := ⟨3, ![1, 512, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S8x1x128 : Shape := ⟨3, ![8, 1, 128]⟩
abbrev S1x4096x128 : Shape := ⟨3, ![1, 4096, 128]⟩
abbrev S1x1x128 : Shape := ⟨3, ![1, 1, 128]⟩
abbrev S4096x128 : Shape := ⟨2, ![4096, 128]⟩
abbrev S128 : Shape := ⟨1, ![128]⟩
abbrev S1x128 : Shape := ⟨2, ![1, 128]⟩

abbrev nBuf : Space → Nat
  | .hbm => 27
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S128x1024, .f32⟩
  | .hbm, ⟨6, _⟩ => ⟨S1024x128, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S1024x128, .f32⟩
  | .hbm, ⟨18, _⟩ => ⟨S1024x128, .bf16⟩
  | .hbm, ⟨19, _⟩ => ⟨S128x1024, .f32⟩
  | .hbm, ⟨20, _⟩ => ⟨S128x1024, .bf16⟩
  | .hbm, ⟨21, _⟩ => ⟨S1024x1024, .f32⟩
  | .hbm, ⟨22, _⟩ => ⟨S1024x1024, .bf16⟩
  | .hbm, ⟨23, _⟩ => ⟨S8x4096x128, .f32⟩
  | .hbm, ⟨24, _⟩ => ⟨S8x1x128, .f32⟩
  | .hbm, ⟨25, _⟩ => ⟨S8x1x128, .f32⟩
  | .hbm, ⟨26, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1x512x128, .f32⟩
  | .local _ .vmem, ⟨8, _⟩ => ⟨S1x512x128, .f32⟩
  | .local _ .vmem, ⟨9, _⟩ => ⟨S1x4096x128, .f32⟩
  | .local _ .vmem, ⟨10, _⟩ => ⟨S1x4096x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x512x128, .f32⟩
  | .local _ .vmem, ⟨16, _⟩ => ⟨S1x512x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x512x1024, .f32⟩
  | .local _ .vmem, ⟨22, _⟩ => ⟨S1x512x1024, .f32⟩
  | .local _ .vmem, ⟨23, _⟩ => ⟨S128x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg8_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S128x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  shapeCasts_S1024_S1x1024 : S1024.ShapeCasts S1x1024
  transposes_S1024x1024_S1024x1024_1_0 : S1024x1024.Transposes [1, 0] S1024x1024
  bitsLt_bf16_f32 : FTy.bits .bf16 < FTy.bits .f32
  transposes_S128x1024_S1024x128_1_0 : S128x1024.Transposes [1, 0] S1024x128
  transposes_S1024x128_S128x1024_1_0 : S1024x128.Transposes [1, 0] S128x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S128 : S4096x128.Reduces [0] S128
  shapeCasts_S128_S1x128 : S128.ShapeCasts S1x128
  broadcasts_S1x128_S4096x128 : S1x128.Broadcasts S4096x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  broadcasts_S1x128_S512x128 : S1x128.Broadcasts S512x128
  reduces_S512x128_S512 : S512x128.Reduces [1] S512
  broadcasts_S512x1_S512x128 : S512x1.Broadcasts S512x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S8x4096x128.size a
  hwx0_6 : ∀ i : grid0.Coords, EltTy.bits .f32 = 32 ∨ (Rect.block (s := S8x4096x128) S1x512x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S8x4096x128.size a
  hwx1_0 : ∀ i : grid1.Coords, EltTy.bits .f32 = 32 ∨ (Rect.block (s := S8x4096x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S8x1x128.size a
  hwx1_1 : ∀ i : grid1.Coords, EltTy.bits .f32 = 32 ∨ (Rect.block (s := S8x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S8x1x128.size a
  hwx1_2 : ∀ i : grid1.Coords, EltTy.bits .f32 = 32 ∨ (Rect.block (s := S8x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x128.size a ≤ S8x4096x128.size a
  hwx2_0 : ∀ i : grid2.Coords, EltTy.bits .f32 = 32 ∨ (Rect.block (s := S8x4096x128) S1x512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S8x1x128.size a
  hwx2_1 : ∀ i : grid2.Coords, EltTy.bits .f32 = 32 ∨ (Rect.block (s := S8x1x128) S1x1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S8x1x128.size a
  hwx2_2 : ∀ i : grid2.Coords, EltTy.bits .f32 = 32 ∨ (Rect.block (s := S8x1x128) S1x1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x4096x1024.size a
  hwx2_3 : ∀ i : grid2.Coords, EltTy.bits .f32 = 32 ∨ (Rect.block (s := S8x4096x1024) S1x512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1024.size a ≤ S128x1024.size a
  hwx2_4 : ∀ i : grid2.Coords, EltTy.bits .bf16 = 32 ∨ (Rect.block (s := S128x1024) S128x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x1024.size a
  hwx2_7 : ∀ i : grid2.Coords, EltTy.bits .f32 = 32 ∨ (Rect.block (s := S1x1024) S1x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x512x1024.size a ≤ S8x4096x1024.size a
  hwx2_8 : ∀ i : grid2.Coords, EltTy.bits .f32 = 32 ∨ (Rect.block (s := S8x4096x1024) S1x512x1024.size (cc2_transform_8 i) (hinb2_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S1x1x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S1x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_0) S1x1x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14_1) S1x1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S1x512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S128x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15) S1x512x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1024x1024 : Shape := ⟨2, ![1024, 1024]⟩
abbrev S128x1024 : Shape := ⟨2, ![128, 1024]⟩
abbrev S1024x128 : Shape := ⟨2, ![1024, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x128 : Shape := ⟨3, ![8, 4096, 128]⟩
abbrev S8x128 : Shape := ⟨2, ![8, 128]⟩
abbrev S8x1x128 : Shape := ⟨3, ![8, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S128x1024, .f32⟩
  | .hbm, ⟨6, _⟩ => ⟨S1024x128, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S8x4096x128, .f32⟩
  | .hbm, ⟨44, _⟩ => ⟨S_, .f32⟩
  | .hbm, ⟨45, _⟩ => ⟨S8x128, .f32⟩
  | .hbm, ⟨46, _⟩ => ⟨S_, .f32⟩
  | .hbm, ⟨47, _⟩ => ⟨S8x128, .f32⟩
  | .hbm, ⟨48, _⟩ => ⟨S8x128, .f32⟩
  | .hbm, ⟨49, _⟩ => ⟨S8x1x128, .f32⟩
  | .hbm, ⟨50, _⟩ => ⟨S8x4096x128, .f32⟩
  | .hbm, ⟨51, _⟩ => ⟨S8x4096x128, .f32⟩
  | .hbm, ⟨52, _⟩ => ⟨S8x4096x128, .f32⟩
  | .hbm, ⟨53, _⟩ => ⟨S_, .f32⟩
  | .hbm, ⟨54, _⟩ => ⟨S8x128, .f32⟩
  | .hbm, ⟨55, _⟩ => ⟨S8x1x128, .f32⟩
  | .hbm, ⟨56, _⟩ => ⟨S8x4096x128, .f32⟩
  | .hbm, ⟨57, _⟩ => ⟨S8x4096x128, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x128, .f32⟩
  | .hbm, ⟨65, _⟩ => ⟨S8x4096x128, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1, .f32⟩
  | .hbm, ⟨89, _⟩ => ⟨S8x4096x1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | .hbm, ⟨94, _⟩ => ⟨S1x1x1024, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S_, .f32⟩
  | .hbm, ⟨99, _⟩ => ⟨S8x4096x1024, .f32⟩
  | .hbm, ⟨100, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call0_cst : Ref sig .tc := ⟨.hbm, 98, rfl⟩
abbrev main_call0_v0 : Ref sig .tc := ⟨.hbm, 99, rfl⟩
abbrev main_v73 : Ref sig .tc := ⟨.hbm, 100, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x128_S8x128_d1 : S8x4096x128.ReducesTo [1] S8x128
  bcast_S_S8x128 : S_.BroadcastsInDim S8x128 (![] : Fin 0 → Fin S8x128.rank)
  bcast_S8x128_S8x1x128_0_2 : S8x128.BroadcastsInDim S8x1x128 (![0, 2] : Fin 2 → Fin S8x1x128.rank)
  bcast_S8x1x128_S8x4096x128_0_1_2 : S8x1x128.BroadcastsInDim S8x4096x128 (![0, 1, 2] : Fin 3 → Fin S8x4096x128.rank)
  reducesTo_S8x4096x128_S8x4096_d2 : S8x4096x128.ReducesTo [2] S8x4096
  bcast_S8x4096x1_S8x4096x128_0_1_2 : S8x4096x1.BroadcastsInDim S8x4096x128 (![0, 1, 2] : Fin 3 → Fin S8x4096x128.rank)
  bcast_S_S8x4096x1024 : S_.BroadcastsInDim S8x4096x1024 (![] : Fin 0 → Fin S8x4096x1024.rank)
  dot_S8x4096x1024_S1024x1024_S8x4096x1024_2_1_01_0_n_n_wf : DotDims.WF S8x4096x1024 S1024x1024 S8x4096x1024 [2] [1] [0, 1] [0] [] []
  dot_S8x4096x1024_S128x1024_S8x4096x128_2_1_01_0_n_n_wf : DotDims.WF S8x4096x1024 S128x1024 S8x4096x128 [2] [1] [0, 1] [0] [] []
  dot_S8x4096x128_S1024x128_S8x4096x1024_2_1_01_0_n_n_wf : DotDims.WF S8x4096x128 S1024x128 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S128x1024_S8x4096x128_2_1_01_0_n_n : DotDims S8x4096x1024 S128x1024 S8x4096x128 where
  lhsContracting := [2]
  rhsContracting := [1]
  lhsNonContracting := [0, 1]
  rhsNonContracting := [0]
  lhsBatch := []
  rhsBatch := []
  wf := dot_S8x4096x1024_S128x1024_S8x4096x128_2_1_01_0_n_n_wf
def dot_S8x4096x128_S1024x128_S8x4096x1024_2_1_01_0_n_n : DotDims S8x4096x128 S1024x128 S8x4096x1024 where
  lhsContracting := [2]
  rhsContracting := [1]
  lhsNonContracting := [0, 1]
  rhsNonContracting := [0]
  lhsBatch := []
  rhsBatch := []
  wf := dot_S8x4096x128_S1024x128_S8x4096x1024_2_1_01_0_n_n_wf

class Facts : Prop extends Facts₀ where

variable [Facts]
-- ==== Proof.Spec.lean ====
/-
  The function both programs compute, on the extended reals, written one row at a time.

  A position of the input is a row of 1024 numbers. The block normalises the row (subtract its mean, divide by the root
  of its variance plus a small constant, scale and shift), applies two linear maps (1024 → 1024 with a bias, then
  1024 → 128) to get the row's 128 logits. Each logit column is then turned, over the 4096 positions of one batch entry,
  into a softmax (subtract the column's maximum, exponentiate, divide by the column's sum of exponentials); each row of
  the result is divided by a small constant plus its own sum; two more linear maps (128 → 1024, 1024 → 1024), a second
  normalisation, the input row added back, and the positive part.

  Every sum is a finite sum over the coordinate it runs over, every maximum a fold of `max` from the word of -∞; the
  float words that occur are kept as words (they are the same words on both sides and are never evaluated).
-/
import Idealize.ShloMosaic.PureOps.Ideal
import Idealize.ShloMosaic.Lib.ValueIdx

noncomputable section

namespace Cert.Amu

open Idealize.ShloMosaic Idealize.ShloMosaic.ValueIdx
open scoped BigOperators

/-- The words of the float constants: the row length 1024, the two small constants, -∞ and 0. -/
def c1024 : EReal := Ideal.ofBits .f32 0x44800000#32
def epsLn : EReal := Ideal.ofBits .f32 0x3727C5AC#32
def epsL1 : EReal := Ideal.ofBits .f32 0x3089705F#32
def negInf : EReal := Ideal.ofBits .f32 0xFF800000#32
def zero : EReal := Ideal.ofBits .f32 0x00000000#32

/-- The mean of a row of 1024 entries: its sum divided by the word of 1024. -/
def mean (r : Fin 1024 → EReal) : EReal := Ideal.div (∑ k, r k) c1024

/-- The variance of a row: the mean of the squared deviations from the row's mean. -/
def var (r : Fin 1024 → EReal) : EReal := Ideal.div (∑ k, (r k - mean r) * (r k - mean r)) c1024

/-- Layer normalisation of a row with scale `g` and shift `b`, entry `d`. -/
def ln (r g b : Fin 1024 → EReal) (d : Fin 1024) : EReal :=
  (r d - mean r) * Ideal.rsqrt (var r + epsLn) * g d + b d

/-- The inner product of two rows of the same length. -/
def dot {K : ℕ} (u v : Fin K → EReal) : EReal := ∑ k, u k * v k

/-- The first linear map with its bias, output channel `e`, applied to the normalised row. -/
def hidden (x g b : Fin 1024 → EReal) (win : Fin 1024 → Fin 1024 → EReal) (bin : Fin 1024 → EReal) (e : Fin 1024) : EReal :=
  dot (ln x g b) (win e) + bin e

/-- The row's logit of slot `k`. -/
def logit (x g b : Fin 1024 → EReal) (win : Fin 1024 → Fin 1024 → EReal) (bin : Fin 1024 → EReal)
    (w0 : Fin 128 → Fin 1024 → EReal) (k : Fin 128) : EReal :=
  dot (hidden x g b win bin) (w0 k)

/-- The maximum of a column of 4096 logits, folded from -∞. -/
def colMax (a : Fin 4096 → EReal) : EReal := (Finset.univ : Finset (Fin 4096)).fold max negInf a

/-- The sum over a column of the exponentials of the logits less `m`. -/
def colSumExp (a : Fin 4096 → EReal) (m : EReal) : EReal := ∑ n, Ideal.exp (a n - m)

/-- One softmax entry from a logit, its column's maximum and its column's sum of exponentials. -/
def soft (a m l : EReal) : EReal := Ideal.div (Ideal.exp (a - m)) l

/-- A row of 128 entries divided by the small constant plus the row's sum. -/
def l1 (s : Fin 128 → EReal) (k : Fin 128) : EReal := Ideal.div (s k) (epsL1 + ∑ j, s j)

/-- From a row `s` of softmax entries to the output row: the L1 normalisation, the two linear maps, the second layer
    normalisation, the input row `x` added, the positive part. -/
def outRow (s : Fin 128 → EReal) (w1 : Fin 1024 → Fin 128 → EReal) (wout : Fin 1024 → Fin 1024 → EReal)
    (og ob x : Fin 1024 → EReal) (e : Fin 1024) : EReal :=
  max (ln (fun e' => dot (fun d => dot (l1 s) (w1 d)) (wout e')) og ob e + x e) zero

/-! ## The arrays, by coordinates -/

/-- The logits of every batch entry `b`, position `n`, slot `k`. -/
def logits (X : Fin 8 → Fin 4096 → Fin 1024 → EReal) (g b : Fin 1024 → EReal) (win : Fin 1024 → Fin 1024 → EReal)
    (bin : Fin 1024 → EReal) (w0 : Fin 128 → Fin 1024 → EReal) (bi : Fin 8) (n : Fin 4096) (k : Fin 128) : EReal :=
  logit (X bi n) g b win bin w0 k

/-- The column maxima of an array of logits. -/
def colMaxs (A : Fin 8 → Fin 4096 → Fin 128 → EReal) (bi : Fin 8) (k : Fin 128) : EReal := colMax fun n => A bi n k

/-- The column sums of exponentials of an array of logits. -/
def colSums (A : Fin 8 → Fin 4096 → Fin 128 → EReal) (bi : Fin 8) (k : Fin 128) : EReal :=
  colSumExp (fun n => A bi n k) (colMaxs A bi k)

/-- The output from an array of logits. -/
def outOf (A : Fin 8 → Fin 4096 → Fin 128 → EReal) (X : Fin 8 → Fin 4096 → Fin 1024 → EReal)
    (w1 : Fin 1024 → Fin 128 → EReal) (wout : Fin 1024 → Fin 1024 → EReal) (og ob : Fin 1024 → EReal)
    (bi : Fin 8) (n : Fin 4096) (e : Fin 1024) : EReal :=
  outRow (fun k => soft (A bi n k) (colMaxs A bi k) (colSums A bi k)) w1 wout og ob (X bi n) e

/-- The whole function of the ten arguments. -/
def out (X : Fin 8 → Fin 4096 → Fin 1024 → EReal) (g b : Fin 1024 → EReal) (win : Fin 1024 → Fin 1024 → EReal)
    (bin : Fin 1024 → EReal) (w0 : Fin 128 → Fin 1024 → EReal) (w1 : Fin 1024 → Fin 128 → EReal)
    (wout : Fin 1024 → Fin 1024 → EReal) (og ob : Fin 1024 → EReal) : Fin 8 → Fin 4096 → Fin 1024 → EReal :=
  outOf (logits X g b win bin w0) X w1 wout og ob

/-! ## Arrays indexed by a shape's index, and back -/

/-- A function of three coordinates as an array over the shape `[a, b, c]`. -/
def arr3 {a b c : ℕ} (f : Fin a → Fin b → Fin c → EReal) : (⟨3, ![a, b, c]⟩ : Shape).Idx → EReal :=
  fun i => f ⟨(i 0).val, (i 0).isLt⟩ ⟨(i 1).val, (i 1).isLt⟩ ⟨(i 2).val, (i 2).isLt⟩

theorem arr3_ix3 {a b c : ℕ} (f : Fin a → Fin b → Fin c → EReal) (p : Fin a) (q : Fin b) (r : Fin c) :
    arr3 f (ix3 p q r) = f p q r := rfl

/-- An array over `[a, b, c]` as a function of three coordinates, and likewise for two and one. -/
def cur3 {a b c : ℕ} (x : (⟨3, ![a, b, c]⟩ : Shape).Idx → EReal) (p : Fin a) (q : Fin b) (r : Fin c) : EReal := x (ix3 p q r)
def cur2 {a b : ℕ} (x : (⟨2, ![a, b]⟩ : Shape).Idx → EReal) (p : Fin a) (q : Fin b) : EReal := x (ix2 p q)
def cur1 {a : ℕ} (x : (⟨1, ![a]⟩ : Shape).Idx → EReal) (p : Fin a) : EReal := x (ix1 p)

end Cert.Amu

end
-- ==== Proof.RefValue.lean ====
/-
  The reference program's result is the specification.

  The reference is ninety host operations on whole arrays. Read at an index written by coordinates, each operation is
  one of: an elementwise operation on the operands at that index; a broadcast, which reads its operand at the index
  with the broadcast coordinates dropped (or set to 0 on a unit axis); a sum over one axis, which is the word of zero
  plus the sum over that axis's coordinates; a contraction, which is the sum over the contracted coordinate of the
  products; and one maximum over the positions, which is the fold of `max` from the word of -∞ over that axis's
  coordinates. On the extended reals every float operation is its textbook one, so the stages compose into the
  specification's formulas: the first layer normalisation of a row, the two linear maps to the logits, the softmax over
  the positions of a column, the division of a row by the small constant plus its sum, two more linear maps, the
  second layer normalisation, the input added back, and the positive part.
-/
import proofs.«172186_j39152921870436_2_alg».proof.Proof.RefReadP
import proofs.«172186_j39152921870436_2_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert Cert.ReferenceIdeal Cert.ReferenceIdeal.Gen Cert.ReferenceIdeal.Read Idealize.ShloMosaic Idealize.ShloMosaic.ValueIdx
open scoped BigOperators

/-- Two indices of rank three, two or one with the same coordinates are equal. -/
local macro "idx3" : tactic =>
  `(tactic| exact funext fun a => Fin.ext (by match a with | ⟨0, _⟩ => rfl | ⟨1, _⟩ => rfl | ⟨2, _⟩ => rfl))
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## The maximum over the positions of a column -/

/-- The positions axis of the logits array can be dropped. -/
theorem red_cols : S8x4096x128.Reduces [1] S8x128 := by decide

/-- The column index `(b, k)` with position `n` put back is `(b, n, k)`. -/
theorem lift_cols (b : Fin 8) (k : Fin 128) (n : Fin 4096) : red_cols.lift (ix2 b k) n = ix3 b n k := by
  funext c; apply Fin.ext
  match c with | ⟨0, _⟩ => rfl | ⟨1, _⟩ => rfl | ⟨2, _⟩ => rfl

/-- The maximum over the positions, from the word of -∞, read at column `(b, k)`: the fold of `max` over the column. -/
theorem hostMax_cols (A : FVec Ideal S8x4096x128 .f32) (b : Fin 8) (k : Fin 128) :
    Host.reduce (FloatOps.maximumf (F := Ideal) (φ := .f32)) A (constant (F := Ideal) S_ .f32 0xFF800000#32)
        reducesTo_S8x4096x128_S8x128_d1 h_S_ (ix2 b k)
      = Amu.colMax fun n => A (ix3 b n k) := by
  have key := Host.reduce_eq_fold_single (FloatOps.maximumf (F := Ideal) (φ := .f32)) A
    (constant (F := Ideal) S_ .f32 0xFF800000#32) reducesTo_S8x4096x128_S8x128_d1 red_cols h_S_ (ix2 b k)
  refine key.trans ?_
  have hf : (A ∘ red_cols.lift (ix2 b k)) = fun n : Fin 4096 => A (ix3 b n k) :=
    funext fun n => congrArg A (lift_cols b k n)
  exact congrArg (fun f => Finset.fold max (Ideal.ofBits .f32 0xFF800000#32) f (Finset.univ : Finset (Fin 4096))) hf

/-- A fold of `max` from -∞ is at least -∞, so taking the maximum with -∞ once more changes nothing. -/
theorem max_negInf_colMax (a : Fin 4096 → EReal) : max Amu.negInf (Amu.colMax a) = Amu.colMax a :=
  max_eq_right ((Finset.le_fold_max _).2 (Or.inl le_rfl))

variable (x0 : (⟨S8x4096x1024, .f32⟩ : BufTy).Contents (Elt Ideal)) (x1 x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S128x1024, .f32⟩ : BufTy).Contents (Elt Ideal)) (x6 : (⟨S1024x128, .f32⟩ : BufTy).Contents (Elt Ideal))
  (x7 : (⟨S1024x1024, .f32⟩ : BufTy).Contents (Elt Ideal)) (x8 x9 : (⟨S1024, .f32⟩ : BufTy).Contents (Elt Ideal))

/-! ## The first layer normalisation (operations 0 to 23) -/

/-- The mean of the row: the sum over the row's entries, from the word of zero, divided by the word of 1024. -/
theorem ln1_mean (b : Fin 8) (n : Fin 4096) (u : Fin 1) :
    val_main_v3 (F := Ideal) x0 (ix3 b n u) = Amu.mean (Amu.cur3 x0 b n) := by
  have e : ∀ k : Fin 1024, idx_main_v0 (idx_main_v1 (ix3 b n u)) k = ix3 b n k := fun k => by idx3
  rw [val_main_v3_apply, val_main_v1_apply, val_main_v0_apply, val_main_v2_apply, val_main_cst_0_apply, val_main_cst_apply]
  simp only [e, Ideal.hostDivf_def, Ideal.ofBits_def, Ideal.ofBits_zero_f32, zero_add]
  rfl

/-- The variance of the row: the mean of the squared deviations from the row's mean. -/
theorem ln1_var (b : Fin 8) (n : Fin 4096) (u : Fin 1) :
    val_main_v10 (F := Ideal) x0 (ix3 b n u) = Amu.var (Amu.cur3 x0 b n) := by
  have e : ∀ k : Fin 1024, idx_main_v7 (idx_main_v8 (ix3 b n u)) k = ix3 b n k := fun k => by idx3
  have e4 : ∀ k : Fin 1024, idx_main_v4 (ix3 b n k) = ix3 b n (0 : Fin 1) := fun k => by idx3
  rw [val_main_v10_apply, val_main_v8_apply, val_main_v7_apply, val_main_v9_apply, val_main_cst_2_apply, val_main_cst_1_apply]
  simp only [e, val_main_v6_apply, val_main_v5_apply, val_main_v4_apply, e4, ln1_mean, Ideal.hostDivf_def, Ideal.subf_def,
    Ideal.mulf_def, Ideal.ofBits_def, Ideal.ofBits_zero_f32, zero_add]
  rfl

/-- The normalised row, scaled and shifted, entry `d`. -/
theorem ln1_ln (b : Fin 8) (n : Fin 4096) (d : Fin 1024) :
    val_main_v23 (F := Ideal) x0 x1 x2 (ix3 b n d) = Amu.ln (Amu.cur3 x0 b n) (Amu.cur1 x1) (Amu.cur1 x2) d := by
  have e11 : idx_main_v11 (ix3 b n d) = ix3 b n (0 : Fin 1) := by idx3
  have e16 : idx_main_v16 (ix3 b n d) = ix3 b n (0 : Fin 1) := by idx3
  have eg : idx_main_v18 (idx_main_v19 (ix3 b n d)) = ix1 d := by idx1
  have eb : idx_main_v21 (idx_main_v22 (ix3 b n d)) = ix1 d := by idx1
  rw [val_main_v23_apply, val_main_v20_apply, val_main_v17_apply, val_main_v12_apply, val_main_v11_apply, e11, ln1_mean, val_main_v16_apply, e16,
    val_main_v15_apply, val_main_v14_apply, ln1_var, val_main_v13_apply, val_main_cst_3_apply, val_main_v19_apply, val_main_v18_apply, eg, val_main_v22_apply, val_main_v21_apply, eb]
  rfl

/-! ## The two linear maps to the logits (operations 24 to 28) -/

/-- The first linear map with its bias, at output channel `e`. -/
theorem hidden_read (b : Fin 8) (n : Fin 4096) (e : Fin 1024) :
    val_main_v27 (F := Ideal) x0 x1 x2 x3 x4 (ix3 b n e)
      = Amu.dot (fun d => val_main_v23 (F := Ideal) x0 x1 x2 (ix3 b n d)) (Amu.cur2 x3 e) + Amu.cur1 x4 e := by
  have el : ∀ k : Fin 1024, lidx_main_v24 (ix3 b n e) k = ix3 b n k := fun k => by idx3
  have er : ∀ k : Fin 1024, ridx_main_v24 (ix3 b n e) k = ix2 e k := fun k => by idx2
  have eb : idx_main_v25 (idx_main_v26 (ix3 b n e)) = ix1 e := by idx1
  rw [val_main_v27_apply, val_main_v24_apply, val_main_v26_apply, val_main_v25_apply, eb]
  simp only [el, er]
  rfl

/-- The second linear map, at slot `k`. -/
theorem logit_read (b : Fin 8) (n : Fin 4096) (k : Fin 128) :
    val_main_v28 (F := Ideal) x0 x1 x2 x3 x4 x5 (ix3 b n k)
      = Amu.dot (fun e => val_main_v27 (F := Ideal) x0 x1 x2 x3 x4 (ix3 b n e)) (Amu.cur2 x5 k) := by
  have el : ∀ j : Fin 1024, lidx_main_v28 (ix3 b n k) j = ix3 b n j := fun j => by idx3
  have er : ∀ j : Fin 1024, ridx_main_v28 (ix3 b n k) j = ix2 k j := fun j => by idx2
  rw [val_main_v28_apply]
  simp only [el, er]
  rfl

/-- The logits array is the specification's. -/
theorem logits_read (b : Fin 8) (n : Fin 4096) (k : Fin 128) :
    val_main_v28 (F := Ideal) x0 x1 x2 x3 x4 x5 (ix3 b n k)
      = Amu.logits (Amu.cur3 x0) (Amu.cur1 x1) (Amu.cur1 x2) (Amu.cur2 x3) (Amu.cur1 x4) (Amu.cur2 x5) b n k := by
  rw [logit_read]
  simp only [hidden_read, ln1_ln]
  rfl

/-! ## The softmax over the positions and the division by the row sum (operations 29 to 45) -/

/-- The column's maximum. -/
theorem colmax_read (b : Fin 8) (k : Fin 128) :
    val_main_v31 (F := Ideal) x0 x1 x2 x3 x4 x5 (ix2 b k)
      = Amu.colMax fun n => val_main_v28 (F := Ideal) x0 x1 x2 x3 x4 x5 (ix3 b n k) := by
  rw [val_main_v31_apply, val_main_v30_apply, val_main_cst_5_apply]
  unfold val_main_v29
  generalize val_main_v28 (F := Ideal) x0 x1 x2 x3 x4 x5 = A
  refine (congrArg (FloatOps.maximumf (FloatOps.ofBits (F := Ideal) .f32 0xFF800000#32)) (hostMax_cols A b k)).trans ?_
  exact max_negInf_colMax _

/-- The exponential of a logit less its column's maximum. -/
theorem exp_read (b : Fin 8) (n : Fin 4096) (k : Fin 128) :
    val_main_v35 (F := Ideal) x0 x1 x2 x3 x4 x5 (ix3 b n k)
      = Ideal.exp (val_main_v28 (F := Ideal) x0 x1 x2 x3 x4 x5 (ix3 b n k) - val_main_v31 (F := Ideal) x0 x1 x2 x3 x4 x5 (ix2 b k)) := by
  have e : idx_main_v32 (idx_main_v33 (ix3 b n k)) = ix2 b k := by idx2
  rw [val_main_v35_apply, val_main_v34_apply, val_main_v33_apply, val_main_v32_apply, e]
  rfl

/-- The column's sum of exponentials. -/
theorem colsum_read (b : Fin 8) (k : Fin 128) :
    val_main_v36 (F := Ideal) x0 x1 x2 x3 x4 x5 (ix2 b k)
      = Amu.colSumExp (fun n => val_main_v28 (F := Ideal) x0 x1 x2 x3 x4 x5 (ix3 b n k)) (val_main_v31 (F := Ideal) x0 x1 x2 x3 x4 x5 (ix2 b k)) := by
  have e : ∀ n : Fin 4096, idx_main_v36 (ix2 b k) n = ix3 b n k := fun n => by idx3
  rw [val_main_v36_apply, val_main_cst_6_apply]
  simp only [e, exp_read, Ideal.ofBits_def, Ideal.ofBits_zero_f32, zero_add]
  rfl

/-- One softmax entry. -/
theorem soft_read (b : Fin 8) (n : Fin 4096) (k : Fin 128) :
    val_main_v39 (F := Ideal) x0 x1 x2 x3 x4 x5 (ix3 b n k)
      = Amu.soft (val_main_v28 (F := Ideal) x0 x1 x2 x3 x4 x5 (ix3 b n k)) (val_main_v31 (F := Ideal) x0 x1 x2 x3 x4 x5 (ix2 b k))
          (val_main_v36 (F := Ideal) x0 x1 x2 x3 x4 x5 (ix2 b k)) := by
  have e : idx_main_v37 (idx_main_v38 (ix3 b n k)) = ix2 b k := by idx2
  rw [val_main_v39_apply, val_main_v38_apply, val_main_v37_apply, e, exp_read]
  rfl

/-- A row of softmax entries divided by the small constant plus the row's sum. -/
theorem l1_read (b : Fin 8) (n : Fin 4096) (k : Fin 128) :
    val_main_v45 (F := Ideal) x0 x1 x2 x3 x4 x5 (ix3 b n k)
      = Amu.l1 (fun j => val_main_v39 (F := Ideal) x0 x1 x2 x3 x4 x5 (ix3 b n j)) k := by
  have e : ∀ j : Fin 128, idx_main_v40 (idx_main_v41 (idx_main_v44 (ix3 b n k))) j = ix3 b n j := fun j => by idx3
  rw [val_main_v45_apply, val_main_v44_apply, val_main_v43_apply, val_main_v42_apply, val_main_cst_8_apply,
    val_main_v41_apply, val_main_v40_apply, val_main_cst_7_apply]
  simp only [e, Ideal.ofBits_def, Ideal.ofBits_zero_f32, zero_add]
  rfl

/-! ## The two linear maps back to the row length (operations 46 and 47) -/

theorem up_read (b : Fin 8) (n : Fin 4096) (d : Fin 1024) :
    val_main_v46 (F := Ideal) x0 x1 x2 x3 x4 x5 x6 (ix3 b n d)
      = Amu.dot (fun k => val_main_v45 (F := Ideal) x0 x1 x2 x3 x4 x5 (ix3 b n k)) (Amu.cur2 x6 d) := by
  have el : ∀ k : Fin 128, lidx_main_v46 (ix3 b n d) k = ix3 b n k := fun k => by idx3
  have er : ∀ k : Fin 128, ridx_main_v46 (ix3 b n d) k = ix2 d k := fun k => by idx2
  rw [val_main_v46_apply]
  simp only [el, er]
  rfl

theorem outmap_read (b : Fin 8) (n : Fin 4096) (e : Fin 1024) :
    val_main_v47 (F := Ideal) x0 x1 x2 x3 x4 x5 x6 x7 (ix3 b n e)
      = Amu.dot (fun d => val_main_v46 (F := Ideal) x0 x1 x2 x3 x4 x5 x6 (ix3 b n d)) (Amu.cur2 x7 e) := by
  have el : ∀ k : Fin 1024, lidx_main_v47 (ix3 b n e) k = ix3 b n k := fun k => by idx3
  have er : ∀ k : Fin 1024, ridx_main_v47 (ix3 b n e) k = ix2 e k := fun k => by idx2
  rw [val_main_v47_apply]
  simp only [el, er]
  rfl

/-! ## The second layer normalisation (operations 48 to 71) -/

/-- The mean of the row: the sum over the row's entries, from the word of zero, divided by the word of 1024. -/
theorem ln2_mean (b : Fin 8) (n : Fin 4096) (u : Fin 1) :
    val_main_v51 (F := Ideal) x0 x1 x2 x3 x4 x5 x6 x7 (ix3 b n u) = Amu.mean (fun e' => val_main_v47 (F := Ideal) x0 x1 x2 x3 x4 x5 x6 x7 (ix3 b n e')) := by
  have e : ∀ k : Fin 1024, idx_main_v48 (idx_main_v49 (ix3 b n u)) k = ix3 b n k := fun k => by idx3
  rw [val_main_v51_apply, val_main_v49_apply, val_main_v48_apply, val_main_v50_apply, val_main_cst_10_apply, val_main_cst_9_apply]
  simp only [e, Ideal.hostDivf_def, Ideal.ofBits_def, Ideal.ofBits_zero_f32, zero_add]
  rfl

/-- The variance of the row: the mean of the squared deviations from the row's mean. -/
theorem ln2_var (b : Fin 8) (n : Fin 4096) (u : Fin 1) :
    val_main_v58 (F := Ideal) x0 x1 x2 x3 x4 x5 x6 x7 (ix3 b n u) = Amu.var (fun e' => val_main_v47 (F := Ideal) x0 x1 x2 x3 x4 x5 x6 x7 (ix3 b n e')) := by
  have e : ∀ k : Fin 1024, idx_main_v55 (idx_main_v56 (ix3 b n u)) k = ix3 b n k := fun k => by idx3
  have e4 : ∀ k : Fin 1024, idx_main_v52 (ix3 b n k) = ix3 b n (0 : Fin 1) := fun k => by idx3
  rw [val_main_v58_apply, val_main_v56_apply, val_main_v55_apply, val_main_v57_apply, val_main_cst_12_apply, val_main_cst_11_apply]
  simp only [e, val_main_v54_apply, val_main_v53_apply, val_main_v52_apply, e4, ln2_mean, Ideal.hostDivf_def, Ideal.subf_def,
    Ideal.mulf_def, Ideal.ofBits_def, Ideal.ofBits_zero_f32, zero_add]
  rfl

/-- The normalised row, scaled and shifted, entry `d`. -/
theorem ln2_ln (b : Fin 8) (n : Fin 4096) (d : Fin 1024) :
    val_main_v71 (F := Ideal) x0 x1 x2 x3 x4 x5 x6 x7 x8 x9 (ix3 b n d) = Amu.ln (fun e' => val_main_v47 (F := Ideal) x0 x1 x2 x3 x4 x5 x6 x7 (ix3 b n e')) (Amu.cur1 x8) (Amu.cur1 x9) d := by
  have e11 : idx_main_v59 (ix3 b n d) = ix3 b n (0 : Fin 1) := by idx3
  have e16 : idx_main_v64 (ix3 b n d) = ix3 b n (0 : Fin 1) := by idx3
  have eg : idx_main_v66 (idx_main_v67 (ix3 b n d)) = ix1 d := by idx1
  have eb : idx_main_v69 (idx_main_v70 (ix3 b n d)) = ix1 d := by idx1
  rw [val_main_v71_apply, val_main_v68_apply, val_main_v65_apply, val_main_v60_apply, val_main_v59_apply, e11, ln2_mean, val_main_v64_apply, e16,
    val_main_v63_apply, val_main_v62_apply, ln2_var, val_main_v61_apply, val_main_cst_13_apply, val_main_v67_apply, val_main_v66_apply, eg, val_main_v70_apply, val_main_v69_apply, eb]
  rfl

/-! ## The input added back and the positive part (operations 72 and 73) -/

theorem relu_read (b : Fin 8) (n : Fin 4096) (e : Fin 1024) :
    val_main_v73 (F := Ideal) x0 x1 x2 x3 x4 x5 x6 x7 x8 x9 (ix3 b n e)
      = max (val_main_v71 (F := Ideal) x0 x1 x2 x3 x4 x5 x6 x7 x8 x9 (ix3 b n e) + x0 (ix3 b n e)) Amu.zero := by
  rw [val_main_v73_apply, val_main_v72_apply, val_main_call0_v0_apply, val_main_call0_cst_apply]
  rfl

/-! ## The whole function -/

/-- The reference's result is the specification of the ten arguments. -/
theorem ref_eq (x0 : (⟨S8x4096x1024, .f32⟩ : BufTy).Contents (Elt Ideal)) (x1 x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S128x1024, .f32⟩ : BufTy).Contents (Elt Ideal)) (x6 : (⟨S1024x128, .f32⟩ : BufTy).Contents (Elt Ideal))
    (x7 : (⟨S1024x1024, .f32⟩ : BufTy).Contents (Elt Ideal)) (x8 x9 : (⟨S1024, .f32⟩ : BufTy).Contents (Elt Ideal)) :
    Read.val_main_v73 (F := Ideal) x0 x1 x2 x3 x4 x5 x6 x7 x8 x9
      = Cert.Amu.arr3 (Cert.Amu.out (Cert.Amu.cur3 x0) (Cert.Amu.cur1 x1) (Cert.Amu.cur1 x2) (Cert.Amu.cur2 x3) (Cert.Amu.cur1 x4)
          (Cert.Amu.cur2 x5) (Cert.Amu.cur2 x6) (Cert.Amu.cur2 x7) (Cert.Amu.cur1 x8) (Cert.Amu.cur1 x9)) := by
  funext i
  obtain ⟨b, n, e, rfl⟩ : ∃ (b : Fin 8) (n : Fin 4096) (e : Fin 1024), i = ix3 b n e := ⟨_, _, _, eq_ix3 i⟩
  rw [Amu.arr3_ix3, relu_read, ln2_ln]
  simp only [outmap_read, up_read, l1_read, soft_read, colsum_read, colmax_read, logits_read]
  rfl

end Cert.ReferenceIdeal.RefValue

end
-- ==== Proof.RunAll.lean ====
/-
  The idealized kernel's run with its result named.

  @main is a stretch of host operations followed by three launches. At each boundary between them the contents of every
  unscoped buffer is a fold from the launch memory: the host operations applied in order, then, per launch, each of its
  arrays replaced by what its write-backs leave. Every weakly fair execution terminates, without a fault, in a state
  whose unscoped buffers hold the last boundary's contents; in particular the result array holds that fold at the
  result buffer, and the ten arguments are as launched.
-/
import proofs.«172186_j39152921870436_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the arguments as launched. -/
theorem run_value : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunAll

end
-- ==== Proof.Entry.lean ====
/-
  What the buffers hold when the first launch is entered.

  Before the first launch @main reshapes the five vectors of 1024 entries (the two scales, the two shifts, the bias) to
  rows `[1, 1024]` and transposes the four weight matrices (a change of float format after the transposition is the
  identity on the extended reals). So at `(0, d)` a row holds entry `d` of its vector, and at `(p, q)` a transposed
  weight holds entry `(q, p)` of the weight; the input array is untouched.
-/
import proofs.«172186_j39152921870436_2_alg».proof.Proof.Gen.KernelIdeal.Frame
import Idealize.ShloMosaic.Lib.StableHlo.Run
import Idealize.ShloMosaic.Lib.ValueLayout

set_option maxRecDepth 16384

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The input array is as launched. -/
theorem v1_arg0 (c : Dev nD) : (V1 m ρ c main_arg0 : S8x4096x1024.Idx → EReal) = m ((c.tc : Thread nD τ).loc main_arg0) := by
  show StableHlo.after hostOps0 (W0 m ρ c) (Proc.devRef .tc main_arg0) = _
  after_results

/-! ## The five rows -/

theorem v1_v0_apply (c : Dev nD) (d : Fin 1024) :
    (V1 m ρ c main_v0 : S1x1024.Idx → EReal) (ix2 (0 : Fin 1) d) = (m ((c.tc : Thread nD τ).loc main_arg1) : S1024.Idx → EReal) (ix1 d) := by
  have h : (V1 m ρ c main_v0 : S1x1024.Idx → EReal)
      = shapeCast S1x1024 (m ((c.tc : Thread nD τ).loc main_arg1)) shapeCasts_S1024_S1x1024 := by
    show StableHlo.after hostOps0 (W0 m ρ c) (Proc.devRef .tc main_v0) = _
    after_results
    rfl
  exact (congrFun h _).trans (shapeCast_a_1a_apply _ _ (0 : Fin 1) d)

theorem v1_v1_apply (c : Dev nD) (d : Fin 1024) :
    (V1 m ρ c main_v1 : S1x1024.Idx → EReal) (ix2 (0 : Fin 1) d) = (m ((c.tc : Thread nD τ).loc main_arg2) : S1024.Idx → EReal) (ix1 d) := by
  have h : (V1 m ρ c main_v1 : S1x1024.Idx → EReal)
      = shapeCast S1x1024 (m ((c.tc : Thread nD τ).loc main_arg2)) shapeCasts_S1024_S1x1024 := by
    show StableHlo.after hostOps0 (W0 m ρ c) (Proc.devRef .tc main_v1) = _
    after_results
    rfl
  exact (congrFun h _).trans (shapeCast_a_1a_apply _ _ (0 : Fin 1) d)

theorem v1_v2_apply (c : Dev nD) (d : Fin 1024) :
    (V1 m ρ c main_v2 : S1x1024.Idx → EReal) (ix2 (0 : Fin 1) d) = (m ((c.tc : Thread nD τ).loc main_arg4) : S1024.Idx → EReal) (ix1 d) := by
  have h : (V1 m ρ c main_v2 : S1x1024.Idx → EReal)
      = shapeCast S1x1024 (m ((c.tc : Thread nD τ).loc main_arg4)) shapeCasts_S1024_S1x1024 := by
    show StableHlo.after hostOps0 (W0 m ρ c) (Proc.devRef .tc main_v2) = _
    after_results
    rfl
  exact (congrFun h _).trans (shapeCast_a_1a_apply _ _ (0 : Fin 1) d)

theorem v1_v3_apply (c : Dev nD) (d : Fin 1024) :
    (V1 m ρ c main_v3 : S1x1024.Idx → EReal) (ix2 (0 : Fin 1) d) = (m ((c.tc : Thread nD τ).loc main_arg8) : S1024.Idx → EReal) (ix1 d) := by
  have h : (V1 m ρ c main_v3 : S1x1024.Idx → EReal)
      = shapeCast S1x1024 (m ((c.tc : Thread nD τ).loc main_arg8)) shapeCasts_S1024_S1x1024 := by
    show StableHlo.after hostOps0 (W0 m ρ c) (Proc.devRef .tc main_v3) = _
    after_results
    rfl
  exact (congrFun h _).trans (shapeCast_a_1a_apply _ _ (0 : Fin 1) d)

theorem v1_v4_apply (c : Dev nD) (d : Fin 1024) :
    (V1 m ρ c main_v4 : S1x1024.Idx → EReal) (ix2 (0 : Fin 1) d) = (m ((c.tc : Thread nD τ).loc main_arg9) : S1024.Idx → EReal) (ix1 d) := by
  have h : (V1 m ρ c main_v4 : S1x1024.Idx → EReal)
      = shapeCast S1x1024 (m ((c.tc : Thread nD τ).loc main_arg9)) shapeCasts_S1024_S1x1024 := by
    show StableHlo.after hostOps0 (W0 m ρ c) (Proc.devRef .tc main_v4) = _
    after_results
    rfl
  exact (congrFun h _).trans (shapeCast_a_1a_apply _ _ (0 : Fin 1) d)

/-! ## The four transposed weights -/

theorem v1_v6_apply (c : Dev nD) (p : Fin 1024) (q : Fin 1024) :
    (V1 m ρ c main_v6 : S1024x1024.Idx → EReal) (ix2 p q) = (m ((c.tc : Thread nD τ).loc main_arg3) : S1024x1024.Idx → EReal) (ix2 q p) := by
  have h : (V1 m ρ c main_v6 : S1024x1024.Idx → EReal)
      = truncf (F := Ideal) .bf16 (transpose S1024x1024 [1, 0] (m ((c.tc : Thread nD τ).loc main_arg3)) transposes_S1024x1024_S1024x1024_1_0) bitsLt_bf16_f32 := by
    show StableHlo.after hostOps0 (W0 m ρ c) (Proc.devRef .tc main_v6) = _
    after_results
  exact (congrFun h _).trans (transpose_ix2_apply _ _ p q)

theorem v1_v8_apply (c : Dev nD) (p : Fin 1024) (q : Fin 128) :
    (V1 m ρ c main_v8 : S1024x128.Idx → EReal) (ix2 p q) = (m ((c.tc : Thread nD τ).loc main_arg5) : S128x1024.Idx → EReal) (ix2 q p) := by
  have h : (V1 m ρ c main_v8 : S1024x128.Idx → EReal)
      = truncf (F := Ideal) .bf16 (transpose S1024x128 [1, 0] (m ((c.tc : Thread nD τ).loc main_arg5)) transposes_S128x1024_S1024x128_1_0) bitsLt_bf16_f32 := by
    show StableHlo.after hostOps0 (W0 m ρ c) (Proc.devRef .tc main_v8) = _
    after_results
  exact (congrFun h _).trans (transpose_ix2_apply _ _ p q)

theorem v1_v10_apply (c : Dev nD) (p : Fin 128) (q : Fin 1024) :
    (V1 m ρ c main_v10 : S128x1024.Idx → EReal) (ix2 p q) = (m ((c.tc : Thread nD τ).loc main_arg6) : S1024x128.Idx → EReal) (ix2 q p) := by
  have h : (V1 m ρ c main_v10 : S128x1024.Idx → EReal)
      = truncf (F := Ideal) .bf16 (transpose S128x1024 [1, 0] (m ((c.tc : Thread nD τ).loc main_arg6)) transposes_S1024x128_S128x1024_1_0) bitsLt_bf16_f32 := by
    show StableHlo.after hostOps0 (W0 m ρ c) (Proc.devRef .tc main_v10) = _
    after_results
  exact (congrFun h _).trans (transpose_ix2_apply _ _ p q)

theorem v1_v12_apply (c : Dev nD) (p : Fin 1024) (q : Fin 1024) :
    (V1 m ρ c main_v12 : S1024x1024.Idx → EReal) (ix2 p q) = (m ((c.tc : Thread nD τ).loc main_arg7) : S1024x1024.Idx → EReal) (ix2 q p) := by
  have h : (V1 m ρ c main_v12 : S1024x1024.Idx → EReal)
      = truncf (F := Ideal) .bf16 (transpose S1024x1024 [1, 0] (m ((c.tc : Thread nD τ).loc main_arg7)) transposes_S1024x1024_S1024x1024_1_0) bitsLt_bf16_f32 := by
    show StableHlo.after hostOps0 (W0 m ρ c) (Proc.devRef .tc main_v12) = _
    after_results
  exact (congrFun h _).trans (transpose_ix2_apply _ _ p q)

end Cert.KernelIdeal.Entry

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.BodyA.lean ====
/-
  What the body of the first kernel leaves in its output block, read at one index.

  The body takes a block of 512 rows of 1024 numbers.  Each row is normalised (its mean subtracted, divided by the
  root of its variance plus a small constant, scaled and shifted), sent through a linear map 1024 → 1024 with a bias,
  and then through a linear map 1024 → 128.  Read at row r and slot k, the stored block is the specification's logit
  of that row: every lane sum is the finite sum over the row's 1024 entries, every matrix product the finite sum over
  the contracted coordinate, and the casts and broadcasts only rename coordinates.
-/
import proofs.«172186_j39152921870436_2_alg».proof.Proof.Gen.KernelIdeal.Frame
import proofs.«172186_j39152921870436_2_alg».proof.Proof.Spec
import proofs.«172186_j39152921870436_2_alg».proof.Proof.LibKeepdims
import Idealize.ShloMosaic.Lib.ValueLayout
import Idealize.ShloMosaic.PureOps.Ideal.Laws

noncomputable section

namespace Cert.KernelIdeal.BodyA

open Idealize.ShloMosaic Idealize.ShloMosaic.ValueIdx Cert.KernelIdeal Cert.KernelIdeal.Gen
open scoped BigOperators

/-! ## The zero offsets -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The two matrix products, read at an index

  For a product of a [512, 1024] matrix with a [1024, n] matrix, contracting the first's lanes with the second's
  rows, the entry (p, e) is the sum over d of the entries (p, d) and (d, e).  The contraction index of the record is
  a one-coordinate index; it is renamed to d : Fin 1024. -/

theorem D1_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem D1_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem D1_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem D1_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul1_apply (lhs : FVec Ideal S512x1024 .bf16) (rhs : FVec Ideal S1024x1024 .bf16) (p : Fin 512) (e : Fin 1024) :
    matmul dot_S512x1024_S1024x1024_S512x1024_1_0_0_1_n_n none lhs rhs (constant S512x1024 .f32 0x00000000#32) (ix2 p e) = ∑ d : Fin 1024, lhs (ix2 p d) * rhs (ix2 d e) := by
  refine (Ideal.matmul_constant_zero_apply dot_S512x1024_S1024x1024_S512x1024_1_0_0_1_n_n none lhs rhs (ix2 p e)).trans ?_
  rw [← Equiv.sum_comp (contrEquiv1 dot_S512x1024_S1024x1024_S512x1024_1_0_0_1_n_n 1024 rfl rfl).symm]
  refine Finset.sum_congr rfl fun d _ => ?_
  have hk := contrEquiv1_symm_val dot_S512x1024_S1024x1024_S512x1024_1_0_0_1_n_n 1024 rfl rfl d
  have el : dot_S512x1024_S1024x1024_S512x1024_1_0_0_1_n_n.lhsIdx (ix2 p e) ((contrEquiv1 dot_S512x1024_S1024x1024_S512x1024_1_0_0_1_n_n 1024 rfl rfl).symm d) = ix2 p d := funext fun a => Fin.ext (by
    match a with
    | ⟨0, _⟩ => exact D1_lhs0 _ _
    | ⟨1, _⟩ => exact (D1_lhs1 _ _).trans hk)
  have er : dot_S512x1024_S1024x1024_S512x1024_1_0_0_1_n_n.rhsIdx (ix2 p e) ((contrEquiv1 dot_S512x1024_S1024x1024_S512x1024_1_0_0_1_n_n 1024 rfl rfl).symm d) = ix2 d e := funext fun a => Fin.ext (by
    match a with
    | ⟨0, _⟩ => exact (D1_rhs0 _ _).trans hk
    | ⟨1, _⟩ => exact D1_rhs1 _ _)
  rw [el, er]

theorem D2_lhs0 (i : S512x128.Idx) (q : dot_S512x1024_S1024x128_S512x128_1_0_0_1_n_n.contr.Idx) : (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem D2_lhs1 (i : S512x128.Idx) (q : dot_S512x1024_S1024x128_S512x128_1_0_0_1_n_n.contr.Idx) : (dot_S512x1024_S1024x128_S512x128_1_0_0_1_n_n.lhsIdx i q 1).val = (q ⟨0, by decide⟩).val :=
  dot_S512x1024_S1024x128_S512x128_1_0_0_1_n_n.lhsIdx_val_of_single rfl i q
theorem D2_rhs0 (i : S512x128.Idx) (q : dot_S512x1024_S1024x128_S512x128_1_0_0_1_n_n.contr.Idx) : (dot_S512x1024_S1024x128_S512x128_1_0_0_1_n_n.rhsIdx i q 0).val = (q ⟨0, by decide⟩).val :=
  dot_S512x1024_S1024x128_S512x128_1_0_0_1_n_n.rhsIdx_val_of_single rfl i q
theorem D2_rhs1 (i : S512x128.Idx) (q : dot_S512x1024_S1024x128_S512x128_1_0_0_1_n_n.contr.Idx) : (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

theorem matmul2_apply (lhs : FVec Ideal S512x1024 .bf16) (rhs : FVec Ideal S1024x128 .bf16) (p : Fin 512) (k : Fin 128) :
    matmul dot_S512x1024_S1024x128_S512x128_1_0_0_1_n_n none lhs rhs (constant S512x128 .f32 0x00000000#32) (ix2 p k) = ∑ d : Fin 1024, lhs (ix2 p d) * rhs (ix2 d k) := by
  refine (Ideal.matmul_constant_zero_apply dot_S512x1024_S1024x128_S512x128_1_0_0_1_n_n none lhs rhs (ix2 p k)).trans ?_
  rw [← Equiv.sum_comp (contrEquiv1 dot_S512x1024_S1024x128_S512x128_1_0_0_1_n_n 1024 rfl rfl).symm]
  refine Finset.sum_congr rfl fun d _ => ?_
  have hk := contrEquiv1_symm_val dot_S512x1024_S1024x128_S512x128_1_0_0_1_n_n 1024 rfl rfl d
  have el : dot_S512x1024_S1024x128_S512x128_1_0_0_1_n_n.lhsIdx (ix2 p k) ((contrEquiv1 dot_S512x1024_S1024x128_S512x128_1_0_0_1_n_n 1024 rfl rfl).symm d) = ix2 p d := funext fun a => Fin.ext (by
    match a with
    | ⟨0, _⟩ => exact D2_lhs0 _ _
    | ⟨1, _⟩ => exact (D2_lhs1 _ _).trans hk)
  have er : dot_S512x1024_S1024x128_S512x128_1_0_0_1_n_n.rhsIdx (ix2 p k) ((contrEquiv1 dot_S512x1024_S1024x128_S512x128_1_0_0_1_n_n 1024 rfl rfl).symm d) = ix2 d k := funext fun a => Fin.ext (by
    match a with
    | ⟨0, _⟩ => exact (D2_rhs0 _ _).trans hk
    | ⟨1, _⟩ => exact D2_rhs1 _ _)
  rw [el, er]

/-! ## The normalisation, stage by stage

  Each stage of the body is named as a vector of the block's values and read at an index written by coordinates. -/

section Stages

variable (v0 : Vec Ideal S1x512x1024 .f32) (v20 v24 : Vec Ideal S1x1024 .f32) (v29 : Vec Ideal S1024x1024 .bf16)
  (v32 : Vec Ideal S1x1024 .f32)

/-- The block as a matrix of 512 rows. -/
def rows : FVec Ideal S512x1024 .f32 := shapeCast S512x1024 v0 shapeCasts_S1x512x1024_S512x1024

theorem rows_apply (p : Fin 512) (d : Fin 1024) : rows v0 (ix2 p d) = v0 (ix3 (0 : Fin 1) p d) :=
  shapeCast_1ab_ab_apply v0 _ p d

/-- The column of the rows' means: each row's sum divided by the word of 1024. -/
def meanCol : FVec Ideal S512x1 .f32 :=
  divf (shapeCast S512x1 (multiReduction .add [1] S512 (rows v0) 0x00000000#32 reduces_S512x1024_S512 (.inl rfl) rfl) shapeCasts_S512_S512x1)
    (broadcast S512x1 (Scalar.ofBits .f32 0x44800000#32))

theorem meanCol_apply (p : Fin 512) (u : Fin 1) :
    meanCol v0 (ix2 p u) = Cert.Amu.mean (fun d => v0 (ix3 (0 : Fin 1) p d)) := by
  show Ideal.div (shapeCast S512x1 _ shapeCasts_S512_S512x1 (ix2 p u)) Cert.Amu.c1024 = Ideal.div _ Cert.Amu.c1024
  refine congrArg (fun t => Ideal.div t Cert.Amu.c1024) ?_
  refine (Cert.Keepdims.shapeCast_a_a1_apply _ _ p u).trans ?_
  refine (Cert.Keepdims.multiReduction_add_rows _ _ _ _ _ p).trans ?_
  exact Finset.sum_congr rfl fun d _ => rows_apply v0 p d

/-- The rows less their means. -/
def centered : FVec Ideal S512x1024 .f32 :=
  subf (rows v0) (broadcastTo S512x1024 (meanCol v0) broadcasts_S512x1_S512x1024)

theorem centered_apply (p : Fin 512) (d : Fin 1024) :
    centered v0 (ix2 p d) = v0 (ix3 (0 : Fin 1) p d) - Cert.Amu.mean (fun d => v0 (ix3 (0 : Fin 1) p d)) := by
  show rows v0 (ix2 p d) - broadcastTo S512x1024 (meanCol v0) broadcasts_S512x1_S512x1024 (ix2 p d) = _
  exact congrArg₂ (· - ·) (rows_apply v0 p d)
    ((Cert.Keepdims.broadcastTo_a1_ab_apply _ _ p d).trans (meanCol_apply v0 p 0))

/-- The column of the rows' variances: each row's sum of squared deviations divided by the word of 1024. -/
def varCol : FVec Ideal S512x1 .f32 :=
  divf (shapeCast S512x1 (multiReduction .add [1] S512 (mulf (centered v0) (centered v0)) 0x00000000#32 reduces_S512x1024_S512 (.inl rfl) rfl) shapeCasts_S512_S512x1)
    (broadcast S512x1 (Scalar.ofBits .f32 0x44800000#32))

theorem varCol_apply (p : Fin 512) (u : Fin 1) :
    varCol v0 (ix2 p u) = Cert.Amu.var (fun d => v0 (ix3 (0 : Fin 1) p d)) := by
  show Ideal.div (shapeCast S512x1 _ shapeCasts_S512_S512x1 (ix2 p u)) Cert.Amu.c1024 = Ideal.div _ Cert.Amu.c1024
  refine congrArg (fun t => Ideal.div t Cert.Amu.c1024) ?_
  refine (Cert.Keepdims.shapeCast_a_a1_apply _ _ p u).trans ?_
  refine (Cert.Keepdims.multiReduction_add_rows _ _ _ _ _ p).trans ?_
  refine Finset.sum_congr rfl fun d _ => ?_
  show centered v0 (ix2 p d) * centered v0 (ix2 p d) = _
  rw [centered_apply]

/-- The column of reciprocal roots of the variances plus the small constant. -/
def rstdCol : FVec Ideal S512x1 .f32 :=
  rsqrt (addf (varCol v0) (broadcast S512x1 (Scalar.ofBits .f32 0x3727C5AC#32)))

theorem rstdCol_apply (p : Fin 512) (u : Fin 1) :
    rstdCol v0 (ix2 p u) = Ideal.rsqrt (Cert.Amu.var (fun d => v0 (ix3 (0 : Fin 1) p d)) + Cert.Amu.epsLn) := by
  show Ideal.rsqrt (varCol v0 (ix2 p u) + Cert.Amu.epsLn) = _
  rw [varCol_apply]

/-- A [1, 1024] row cast to itself and broadcast over the 512 rows reads, at (p, d), the row's entry d. -/
theorem rowBroadcast_apply (v : Vec Ideal S1x1024 .f32) (p : Fin 512) (d : Fin 1024) :
    broadcastTo S512x1024 (shapeCast S1x1024 v shapeCasts_S1x1024_S1x1024) broadcasts_S1x1024_S512x1024 (ix2 p d)
      = v (ix2 (0 : Fin 1) d) := by
  rw [shapeCast_self]
  exact broadcastTo_1b_ab_apply v _ p d

/-- The normalised rows, scaled and shifted. -/
def lnVec : FVec Ideal S512x1024 .f32 :=
  addf (mulf (mulf (centered v0) (broadcastTo S512x1024 (rstdCol v0) broadcasts_S512x1_S512x1024))
      (broadcastTo S512x1024 (shapeCast S1x1024 v20 shapeCasts_S1x1024_S1x1024) broadcasts_S1x1024_S512x1024))
    (broadcastTo S512x1024 (shapeCast S1x1024 v24 shapeCasts_S1x1024_S1x1024) broadcasts_S1x1024_S512x1024)

theorem lnVec_apply (p : Fin 512) (d : Fin 1024) :
    lnVec v0 v20 v24 (ix2 p d)
      = Cert.Amu.ln (fun d => v0 (ix3 (0 : Fin 1) p d)) (fun d => v20 (ix2 (0 : Fin 1) d)) (fun d => v24 (ix2 (0 : Fin 1) d)) d := by
  show centered v0 (ix2 p d) * broadcastTo S512x1024 (rstdCol v0) broadcasts_S512x1_S512x1024 (ix2 p d)
        * broadcastTo S512x1024 (shapeCast S1x1024 v20 shapeCasts_S1x1024_S1x1024) broadcasts_S1x1024_S512x1024 (ix2 p d)
      + broadcastTo S512x1024 (shapeCast S1x1024 v24 shapeCasts_S1x1024_S1x1024) broadcasts_S1x1024_S512x1024 (ix2 p d) = _
  rw [centered_apply, Cert.Keepdims.broadcastTo_a1_ab_apply, rstdCol_apply, rowBroadcast_apply, rowBroadcast_apply]
  rfl

/-- The first linear map applied to the normalised rows, with its bias. -/
def hiddenVec : FVec Ideal S512x1024 .f32 :=
  addf (matmul dot_S512x1024_S1024x1024_S512x1024_1_0_0_1_n_n none (truncf .bf16 (lnVec v0 v20 v24) bitsLt_bf16_f32)
      (shapeCast S1024x1024 v29 shapeCasts_S1024x1024_S1024x1024 : FVec Ideal S1024x1024 .bf16) (constant S512x1024 .f32 0x00000000#32))
    (broadcastTo S512x1024 (shapeCast S1x1024 v32 shapeCasts_S1x1024_S1x1024) broadcasts_S1x1024_S512x1024)

theorem hiddenVec_apply (p : Fin 512) (e : Fin 1024) :
    hiddenVec v0 v20 v24 v29 v32 (ix2 p e)
      = Cert.Amu.hidden (fun d => v0 (ix3 (0 : Fin 1) p d)) (fun d => v20 (ix2 (0 : Fin 1) d)) (fun d => v24 (ix2 (0 : Fin 1) d))
          (fun e d => v29 (ix2 d e)) (fun e => v32 (ix2 (0 : Fin 1) e)) e := by
  show matmul dot_S512x1024_S1024x1024_S512x1024_1_0_0_1_n_n none (truncf .bf16 (lnVec v0 v20 v24) bitsLt_bf16_f32)
        (shapeCast S1024x1024 v29 shapeCasts_S1024x1024_S1024x1024 : FVec Ideal S1024x1024 .bf16) (constant S512x1024 .f32 0x00000000#32) (ix2 p e)
      + broadcastTo S512x1024 (shapeCast S1x1024 v32 shapeCasts_S1x1024_S1x1024) broadcasts_S1x1024_S512x1024 (ix2 p e) = _
  rw [matmul1_apply, rowBroadcast_apply, shapeCast_self]
  refine congrArg (· + v32 (ix2 (0 : Fin 1) e)) ?_
  refine Finset.sum_congr rfl fun d _ => ?_
  show lnVec v0 v20 v24 (ix2 p d) * v29 (ix2 d e) = _
  rw [lnVec_apply]

/-- The body's first payload is the hidden rows (the narrowing of the format is the identity on extended reals). -/
theorem pay2_eq : k0_pay2 (F := Ideal) v0 v20 v24 v29 v32 = truncf .bf16 (hiddenVec v0 v20 v24 v29 v32) bitsLt_bf16_f32 := rfl

end Stages

/-! ## The stored block -/

theorem out0_6_apply (x0 : Vec Ideal S1x512x1024 .f32) (x1 x2 : Vec Ideal S1x1024 .f32) (x3 : Vec Ideal S1024x1024 .bf16)
    (x4 : Vec Ideal S1x1024 .f32) (x5 : Vec Ideal S1024x128 .bf16) (r : Fin 512) (k : Fin 128) :
    Gen.out0_6 (F := Ideal) x0 x1 x2 x3 x4 x5 (ix3 (0 : Fin 1) r k)
      = Cert.Amu.logit (fun d => x0 (ix3 (0 : Fin 1) r d)) (fun d => x1 (ix2 (0 : Fin 1) d)) (fun d => x2 (ix2 (0 : Fin 1) d))
          (fun e d => x3 (ix2 d e)) (fun e => x4 (ix2 (0 : Fin 1) e)) (fun j d => x5 (ix2 d j)) k := by
  unfold Gen.out0_6
  rw [View.canon_unit_zero hz3]
  simp only [View.ld_unit_zero (S := S1x512x1024) hz3, View.ld_unit_zero (S := S1x1024) hz2,
    View.ld_unit_zero (S := S1024x1024) hz2, View.ld_unit_zero (S := S1024x128) hz2]
  rw [pay2_eq]
  show shapeCast S1x512x128
      (matmul dot_S512x1024_S1024x128_S512x128_1_0_0_1_n_n none (truncf .bf16 (hiddenVec x0 x1 x2 x3 x4) bitsLt_bf16_f32)
        (shapeCast S1024x128 x5 shapeCasts_S1024x128_S1024x128 : FVec Ideal S1024x128 .bf16) (constant S512x128 .f32 0x00000000#32))
      shapeCasts_S512x128_S1x512x128 (ix3 (0 : Fin 1) r k) = _
  refine (shapeCast_ab_1ab_apply _ _ (0 : Fin 1) r k).trans ?_
  refine (matmul2_apply _ _ r k).trans ?_
  rw [shapeCast_self]
  unfold Cert.Amu.logit Cert.Amu.dot
  refine Finset.sum_congr rfl fun d _ => ?_
  show hiddenVec x0 x1 x2 x3 x4 (ix2 r d) * x5 (ix2 d k) = _
  rw [hiddenVec_apply]

end Cert.KernelIdeal.BodyA

end
-- ==== Proof.Final0.lean ====
/-
  The first launch, from blocks to the array.

  The launch has 8 × 8 points; point t has coordinates (b, n) = (t / 8, t % 8).  At (b, n) it reads the block
  [1, 512, 1024] of the input at (b, n, 0) and the whole of the two normalisation rows, the first weight, its bias and
  the second weight, and writes back the block [1, 512, 128] at (b, n, 0) of the array of logits.  The 64 blocks tile
  that array, so after the launch it is one function of the arrays as the launch found them: at (b, m, k) the logit of
  slot k of the row at position m of batch entry b.
-/
import proofs.«172186_j39152921870436_2_alg».proof.Proof.Gen.KernelIdeal.Frame
import proofs.«172186_j39152921870436_2_alg».proof.Proof.BodyA
import proofs.«172186_j39152921870436_2_alg».proof.Proof.Spec
import Idealize.ShloMosaic.Lib.Pipeline.Value

set_option maxRecDepth 16384

noncomputable section

namespace Cert.KernelIdeal.Final0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The array of logits of the arrays the launch finds. -/
def logitArr (c : Dev nD) : S8x4096x128.Idx → EReal :=
  Cert.Amu.arr3 (fun b n k => Cert.Amu.logit (fun d => V c main_arg0 (ix3 b n d)) (fun d => V c main_v0 (ix2 (0 : Fin 1) d)) (fun d => V c main_v1 (ix2 (0 : Fin 1) d))
    (fun e d => V c main_v6 (ix2 d e)) (fun e => V c main_v2 (ix2 (0 : Fin 1) e)) (fun j d => V c main_v8 (ix2 d j)) k)

/-- The printed index maps over the grid: point t reads the input block and writes the output block at
    (t / 8, t % 8, 0), and reads every other array whole. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 8 ∧ win0_6.index t (1 : Fin 3) = t.val % 8 ∧ win0_6.index t (2 : Fin 3) = 0 :=
  (by decide +kernel : ∀ t : Fin grid0.N, _)

/-- What point t writes back is block t of logitArr. -/
theorem flushed6_eq (c : Dev nD) (t : Fin cfg0.N) :
    (dat0 V c).flushed 6 t = ((cfg0.win 6).blk t).view.read (Elt Ideal) (logitArr V c) := by
  show (cfg0.win 6).cut (grid0.coords t) ((dat0 V c).after 6 t) = _
  rw [after0_6]
  funext y
  obtain ⟨e00, e01, e02, e10, e11, e20, e21, e30, e31, e40, e41, e50, e51, e60, e61, e62⟩ := idx_facts0 t
  have hy0 : (y 0).val < 1 := (y 0).isLt
  have hy1 : (y 1).val < 512 := (y 1).isLt
  have hy2 : (y 2).val < 128 := (y 2).isLt
  have hx : (cfg0.win 6).xinj (grid0.coords t) y = ix3 (0 : Fin 1) (⟨(y 1).val, hy1⟩ : Fin 512) (⟨(y 2).val, hy2⟩ : Fin 128) := by
    funext a; apply Fin.ext
    match a with
    | ⟨0, _⟩ => show (y 0).val = 0; omega
    | ⟨1, _⟩ => rfl
    | ⟨2, _⟩ => rfl
  show out0_6 (iblk0 V c 0 t) (iblk0 V c 1 t) (iblk0 V c 2 t) (iblk0 V c 3 t) (iblk0 V c 4 t) (iblk0 V c 5 t)
      ((cfg0.win 6).xinj (grid0.coords t) y) = logitArr V c (((cfg0.win 6).blk t).view.emb y)
  rw [hx, Cert.KernelIdeal.BodyA.out0_6_apply]
  unfold logitArr Cert.Amu.arr3
  have hk : (⟨(y 2).val, hy2⟩ : Fin 128)
      = ⟨((((cfg0.win 6).blk t).view.emb y) 2).val, ((((cfg0.win 6).blk t).view.emb y) 2).isLt⟩ := Fin.ext (by
    show (y 2).val = win0_6.index t (2 : Fin 3) * 128 + 1 * (y 2).val
    omega)
  have h0 : ∀ d : Fin 1024, iblk0 V c 0 t (ix3 (0 : Fin 1) (⟨(y 1).val, hy1⟩ : Fin 512) d)
      = V c main_arg0 (ix3 ⟨((((cfg0.win 6).blk t).view.emb y) 0).val, ((((cfg0.win 6).blk t).view.emb y) 0).isLt⟩
          ⟨((((cfg0.win 6).blk t).view.emb y) 1).val, ((((cfg0.win 6).blk t).view.emb y) 1).isLt⟩ d) := by
    intro d
    show V c main_arg0 (((cfg0.win 0).blk t).view.emb (ix3 (0 : Fin 1) (⟨(y 1).val, hy1⟩ : Fin 512) d)) = V c main_arg0 _
    refine congrArg (V c main_arg0) (funext fun a => Fin.ext ?_)
    match a with
    | ⟨0, _⟩ =>
      show win0_0.index t (0 : Fin 3) * 1 + 1 * 0 = win0_6.index t (0 : Fin 3) * 1 + 1 * (y 0).val
      omega
    | ⟨1, _⟩ =>
      show win0_0.index t (1 : Fin 3) * 512 + 1 * (y 1).val = win0_6.index t (1 : Fin 3) * 512 + 1 * (y 1).val
      omega
    | ⟨2, _⟩ =>
      show win0_0.index t (2 : Fin 3) * 1024 + 1 * d.val = d.val
      omega
  have h1 : ∀ d : Fin 1024, iblk0 V c 1 t (ix2 (0 : Fin 1) d) = V c main_v0 (ix2 (0 : Fin 1) d) := by
    intro d
    show V c main_v0 (((cfg0.win 1).blk t).view.emb (ix2 (0 : Fin 1) d)) = V c main_v0 _
    refine congrArg (V c main_v0) (funext fun a => Fin.ext ?_)
    match a with
    | ⟨0, _⟩ => show win0_1.index t (0 : Fin 2) * 1 + 1 * 0 = 0; omega
    | ⟨1, _⟩ => show win0_1.index t (1 : Fin 2) * 1024 + 1 * d.val = d.val; omega
  have h2 : ∀ d : Fin 1024, iblk0 V c 2 t (ix2 (0 : Fin 1) d) = V c main_v1 (ix2 (0 : Fin 1) d) := by
    intro d
    show V c main_v1 (((cfg0.win 2).blk t).view.emb (ix2 (0 : Fin 1) d)) = V c main_v1 _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 1024 + 1 * d.val = d.val; omega
  have h3 : ∀ d e : Fin 1024, iblk0 V c 3 t (ix2 d e) = V c main_v6 (ix2 d e) := by
    intro d e
    show V c main_v6 (((cfg0.win 3).blk t).view.emb (ix2 d e)) = V c main_v6 _
    refine congrArg (V c main_v6) (funext fun a => Fin.ext ?_)
    match a with
    | ⟨0, _⟩ => show win0_3.index t (0 : Fin 2) * 1024 + 1 * d.val = d.val; omega
    | ⟨1, _⟩ => show win0_3.index t (1 : Fin 2) * 1024 + 1 * e.val = e.val; omega
  have h4 : ∀ e : Fin 1024, iblk0 V c 4 t (ix2 (0 : Fin 1) e) = V c main_v2 (ix2 (0 : Fin 1) e) := by
    intro e
    show V c main_v2 (((cfg0.win 4).blk t).view.emb (ix2 (0 : Fin 1) e)) = V c main_v2 _
    refine congrArg (V c main_v2) (funext fun a => Fin.ext ?_)
    match a with
    | ⟨0, _⟩ => show win0_4.index t (0 : Fin 2) * 1 + 1 * 0 = 0; omega
    | ⟨1, _⟩ => show win0_4.index t (1 : Fin 2) * 1024 + 1 * e.val = e.val; omega
  have h5 : ∀ (d : Fin 1024) (j : Fin 128), iblk0 V c 5 t (ix2 d j) = V c main_v8 (ix2 d j) := by
    intro d j
    show V c main_v8 (((cfg0.win 5).blk t).view.emb (ix2 d j)) = V c main_v8 _
    refine congrArg (V c main_v8) (funext fun a => Fin.ext ?_)
    match a with
    | ⟨0, _⟩ => show win0_5.index t (0 : Fin 2) * 1024 + 1 * d.val = d.val; omega
    | ⟨1, _⟩ => show win0_5.index t (1 : Fin 2) * 128 + 1 * j.val = j.val; omega
  rw [hk]
  simp only [h0, h1, h2, h3, h4, h5]

/-- An index of the array of logits is in point t's block iff each coordinate is in the block's range on its axis. -/
theorem mem_blk6 (t : Fin cfg0.N) (i : S8x4096x128.Idx) :
    i ∈ ((cfg0.win 6).blk t).view.set ↔ ∀ a : Fin 3, win0_6.index t a * S1x512x128.size a ≤ (i a).val ∧ (i a).val < win0_6.index t a * S1x512x128.size a + S1x512x128.size a := by
  show i ∈ ((View.whole main_v13).slice (win0_6.rect t)).set ↔ _
  rw [View.set_slice_whole, Rect.mem_set_unit]
  exact Iff.rfl

/-- Every index (b, m, k) of the array of logits is in the block of the point (b, m / 512). -/
theorem cover6 (i : S8x4096x128.Idx) : ∃ t : Fin cfg0.N, (cfg0.win 6).flush t = true ∧ i ∈ ((cfg0.win 6).blk t).view.set := by
  have h0 : (i 0).val < 8 := (i 0).isLt
  have h1 : (i 1).val < 4096 := (i 1).isLt
  have h2 : (i 2).val < 128 := (i 2).isLt
  have hN : (i 0).val * 8 + (i 1).val / 512 < cfg0.N := by show (i 0).val * 8 + (i 1).val / 512 < grid0.N; rw [N_0]; omega
  refine ⟨⟨(i 0).val * 8 + (i 1).val / 512, hN⟩, flush0_6 _, ?_⟩
  rw [mem_blk6]
  obtain ⟨-, -, -, -, -, -, -, -, -, -, -, -, -, e60, e61, e62⟩ := idx_facts0 ⟨(i 0).val * 8 + (i 1).val / 512, hN⟩
  intro a
  match a with
  | ⟨0, _⟩ =>
    show win0_6.index ⟨(i 0).val * 8 + (i 1).val / 512, hN⟩ (0 : Fin 3) * 1 ≤ (i 0).val ∧ (i 0).val < win0_6.index ⟨(i 0).val * 8 + (i 1).val / 512, hN⟩ (0 : Fin 3) * 1 + 1
    rw [show win0_6.index ⟨(i 0).val * 8 + (i 1).val / 512, hN⟩ (0 : Fin 3) = ((i 0).val * 8 + (i 1).val / 512) / 8 from e60]
    constructor <;> omega
  | ⟨1, _⟩ =>
    show win0_6.index ⟨(i 0).val * 8 + (i 1).val / 512, hN⟩ (1 : Fin 3) * 512 ≤ (i 1).val ∧ (i 1).val < win0_6.index ⟨(i 0).val * 8 + (i 1).val / 512, hN⟩ (1 : Fin 3) * 512 + 512
    rw [show win0_6.index ⟨(i 0).val * 8 + (i 1).val / 512, hN⟩ (1 : Fin 3) = ((i 0).val * 8 + (i 1).val / 512) % 8 from e61]
    constructor <;> omega
  | ⟨2, _⟩ =>
    show win0_6.index ⟨(i 0).val * 8 + (i 1).val / 512, hN⟩ (2 : Fin 3) * 128 ≤ (i 2).val ∧ (i 2).val < win0_6.index ⟨(i 0).val * 8 + (i 1).val / 512, hN⟩ (2 : Fin 3) * 128 + 128
    rw [e62]
    constructor <;> omega

/-- After the launch the array of logits is logitArr of the arrays it found. -/
theorem final0 (c : Dev nD) : (dat0 V c).arrAt 6 cfg0.N = logitArr V c :=
  (dat0 V c).arrAt_eq_of_cover 6 (logitArr V c) (fun t _ => flushed6_eq V c t) cover6

end Cert.KernelIdeal.Final0

end
-- ==== Proof.BodyB.lean ====
/-
  What the second launch's body leaves in its two output blocks.

  The body reads one batch entry's logits, a block `[1, 4096, 128]`. For each of the 128 slots it takes the maximum of the
  4096 logits of that slot's column (a fold of `max` from the word of -∞), and the sum over the column of the
  exponentials of the logits less that maximum; it stores the maxima in one `[1, 1, 128]` block and the sums in another.
-/
import proofs.«172186_j39152921870436_2_alg».proof.Proof.Gen.KernelIdeal.Frame
import proofs.«172186_j39152921870436_2_alg».proof.Proof.Spec
import Idealize.ShloMosaic.Lib.ValueLayout
import Idealize.ShloMosaic.PureOps.Ideal.Laws

noncomputable section

namespace Cert.KernelIdeal.BodyB

open Idealize.ShloMosaic Idealize.ShloMosaic.ValueIdx Cert.KernelIdeal Cert.KernelIdeal.Gen
open scoped BigOperators

theorem hz3 : (![0, 0, 0] : Fin 3 → Nat) = fun _ => 0 := funext fun a => by fin_cases a <;> rfl

/-- Column `k` of the `[4096, 128]` matrix with row `n` put back on the dropped axis is `(n, k)`. -/
theorem lift_col (h : S4096x128.Reduces [0] S128) (k : Fin 128) (n : Fin (S4096x128.size 0)) :
    h.lift (ix1 k) n = ix2 (⟨n.val, n.isLt⟩ : Fin 4096) k := by
  funext c; apply Fin.ext
  match c with
  | ⟨0, _⟩ => rfl
  | ⟨1, _⟩ => rfl

/-- The block with its leading unit axis dropped, at `(n, k)`. -/
theorem pay1_apply (v0 : Vec Ideal S1x4096x128 .f32) (n : Fin 4096) (k : Fin 128) :
    k1_pay1 (F := Ideal) v0 (ix2 n k) = v0 (ix3 (0 : Fin 1) n k) := by
  unfold k1_pay1
  exact shapeCast_1ab_ab_apply v0 _ n k

/-- The column maxima kept as a row, at `(0, k)`: the fold of `max` from -∞ over column `k`. -/
theorem pay2_apply (v0 : Vec Ideal S1x4096x128 .f32) (k : Fin 128) :
    k1_pay2 (F := Ideal) v0 (ix2 (0 : Fin 1) k) = Cert.Amu.colMax (fun n => v0 (ix3 (0 : Fin 1) n k)) := by
  unfold k1_pay2
  refine (shapeCast_a_1a_apply _ _ (0 : Fin 1) k).trans ?_
  refine (Ideal.multiReduction_maximumf_single _ _ _ _ _ (ix1 k)).trans ?_
  unfold Cert.Amu.colMax Cert.Amu.negInf
  refine congrArg (fun f => Finset.fold max _ f Finset.univ) (funext fun n => ?_)
  rw [Function.comp_apply, lift_col]
  exact pay1_apply v0 _ k

/-- The maxima block, at `(0, 0, k)`. -/
theorem pay3_apply (v0 : Vec Ideal S1x4096x128 .f32) (k : Fin 128) :
    k1_pay3 (F := Ideal) v0 (ix3 (0 : Fin 1) (0 : Fin 1) k) = Cert.Amu.colMax (fun n => v0 (ix3 (0 : Fin 1) n k)) := by
  unfold k1_pay3
  exact (shapeCast_ab_1ab_apply _ _ (0 : Fin 1) (0 : Fin 1) k).trans (pay2_apply v0 k)

/-- The sums block, at `(0, 0, k)`: the sum over column `k` of the exponentials of the logits less the column's maximum. -/
theorem pay4_apply (v0 : Vec Ideal S1x4096x128 .f32) (k : Fin 128) :
    k1_pay4 (F := Ideal) v0 (ix3 (0 : Fin 1) (0 : Fin 1) k)
      = Cert.Amu.colSumExp (fun n => v0 (ix3 (0 : Fin 1) n k)) (Cert.Amu.colMax (fun n => v0 (ix3 (0 : Fin 1) n k))) := by
  unfold k1_pay4
  refine (shapeCast_ab_1ab_apply _ _ (0 : Fin 1) (0 : Fin 1) k).trans ?_
  refine (shapeCast_a_1a_apply _ _ (0 : Fin 1) k).trans ?_
  refine (Ideal.multiReduction_add_single _ _ _ _ _ (ix1 k)).trans ?_
  unfold Cert.Amu.colSumExp
  refine Finset.sum_congr rfl fun n _ => ?_
  rw [lift_col]
  exact congrArg Ideal.exp (congrArg₂ (· - ·) (pay1_apply v0 _ k)
    ((broadcastTo_1b_ab_apply _ _ _ k).trans (pay2_apply v0 k)))

/-- What the body leaves in the block of maxima, from the block of logits it read. -/
theorem out1_1_apply (x0 : Vec Ideal S1x4096x128 .f32) (k : Fin 128) :
    Gen.out1_1 (F := Ideal) x0 (ix3 (0 : Fin 1) (0 : Fin 1) k) = Cert.Amu.colMax (fun n => x0 (ix3 (0 : Fin 1) n k)) := by
  unfold Gen.out1_1
  rw [View.canon_unit_zero hz3, View.ld_unit_zero (S := S1x4096x128) hz3]
  exact pay3_apply x0 k

/-- What the body leaves in the block of sums. -/
theorem out1_2_apply (x0 : Vec Ideal S1x4096x128 .f32) (k : Fin 128) :
    Gen.out1_2 (F := Ideal) x0 (ix3 (0 : Fin 1) (0 : Fin 1) k)
      = Cert.Amu.colSumExp (fun n => x0 (ix3 (0 : Fin 1) n k)) (Cert.Amu.colMax (fun n => x0 (ix3 (0 : Fin 1) n k))) := by
  unfold Gen.out1_2
  rw [View.canon_unit_zero hz3, View.ld_unit_zero (S := S1x4096x128) hz3]
  exact pay4_apply x0 k

end Cert.KernelIdeal.BodyB

end
-- ==== Proof.Final1.lean ====
/-
  The second launch, from blocks to arrays.

  The launch has eight points, one per batch entry `b`. At point `b` it reads the block `[1, 4096, 128]` of the logits
  at `(b, 0, 0)` and writes back two blocks `[1, 1, 128]`, at `(b, 0, 0)` of the array of maxima and of the array of sums.
  The eight blocks of each output array tile it, so after the launch each array is one function of the logits as the
  launch found them: at `(b, 0, k)` the maximum of column `k` of batch entry `b`, and the sum over that column of the
  exponentials of the logits less that maximum.
-/
import proofs.«172186_j39152921870436_2_alg».proof.Proof.Gen.KernelIdeal.Frame
import proofs.«172186_j39152921870436_2_alg».proof.Proof.BodyB
import Idealize.ShloMosaic.Lib.Pipeline.Value

set_option maxRecDepth 16384

noncomputable section

namespace Cert.KernelIdeal.Final1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The array of column maxima of the logits the launch finds. -/
def maxArr (c : Dev nD) : S8x1x128.Idx → EReal :=
  Cert.Amu.arr3 (fun b (_ : Fin 1) k => Cert.Amu.colMax (fun n => V c main_v13 (ix3 b n k)))

/-- The array of column sums of exponentials of the logits the launch finds. -/
def sumArr (c : Dev nD) : S8x1x128.Idx → EReal :=
  Cert.Amu.arr3 (fun b (_ : Fin 1) k => Cert.Amu.colSumExp (fun n => V c main_v13 (ix3 b n k))
    (Cert.Amu.colMax (fun n => V c main_v13 (ix3 b n k))))

/-- The printed index maps over the grid: point `t` reads and writes the blocks at `(t, 0, 0)`. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- What point `t` writes back to the maxima is block `t` of `maxArr`. -/
theorem flushed1_eq (c : Dev nD) (t : Fin cfg1.N) :
    (dat1 V c).flushed 1 t = ((cfg1.win 1).blk t).view.read (Elt Ideal) (maxArr V c) := by
  show (cfg1.win 1).cut (grid1.coords t) ((dat1 V c).after 1 t) = _
  rw [after1_1]
  funext y
  obtain ⟨e00, e01, e02, e10, e11, e12, -, -, -⟩ := idx_facts1 t
  have hy0 : (y 0).val < 1 := (y 0).isLt
  have hy1 : (y 1).val < 1 := (y 1).isLt
  have hy2 : (y 2).val < 128 := (y 2).isLt
  have hx : (cfg1.win 1).xinj (grid1.coords t) y = ix3 (0 : Fin 1) (0 : Fin 1) (⟨(y 2).val, hy2⟩ : Fin 128) := by
    funext a; apply Fin.ext
    match a with
    | ⟨0, _⟩ => show (y 0).val = 0; omega
    | ⟨1, _⟩ => show (y 1).val = 0; omega
    | ⟨2, _⟩ => rfl
  show out1_1 (iblk1 V c 0 t) ((cfg1.win 1).xinj (grid1.coords t) y) = maxArr V c (((cfg1.win 1).blk t).view.emb y)
  rw [hx, Cert.KernelIdeal.BodyB.out1_1_apply]
  unfold maxArr Cert.Amu.arr3
  refine congrArg Cert.Amu.colMax (funext fun n => ?_)
  show V c main_v13 (((cfg1.win 0).blk t).view.emb (ix3 (0 : Fin 1) n (⟨(y 2).val, hy2⟩ : Fin 128))) = V c main_v13 _
  refine congrArg (V c main_v13) (funext fun a => Fin.ext ?_)
  match a with
  | ⟨0, _⟩ =>
    show win1_0.index t (0 : Fin 3) * 1 + 1 * 0 = win1_1.index t (0 : Fin 3) * 1 + 1 * (y 0).val
    omega
  | ⟨1, _⟩ =>
    show win1_0.index t (1 : Fin 3) * 4096 + 1 * n.val = n.val
    omega
  | ⟨2, _⟩ =>
    show win1_0.index t (2 : Fin 3) * 128 + 1 * (y 2).val = win1_1.index t (2 : Fin 3) * 128 + 1 * (y 2).val
    omega

/-- What point `t` writes back to the sums is block `t` of `sumArr`. -/
theorem flushed2_eq (c : Dev nD) (t : Fin cfg1.N) :
    (dat1 V c).flushed 2 t = ((cfg1.win 2).blk t).view.read (Elt Ideal) (sumArr V c) := by
  show (cfg1.win 2).cut (grid1.coords t) ((dat1 V c).after 2 t) = _
  rw [after1_2]
  funext y
  obtain ⟨e00, e01, e02, -, -, -, e20, e21, e22⟩ := idx_facts1 t
  have hy0 : (y 0).val < 1 := (y 0).isLt
  have hy1 : (y 1).val < 1 := (y 1).isLt
  have hy2 : (y 2).val < 128 := (y 2).isLt
  have hx : (cfg1.win 2).xinj (grid1.coords t) y = ix3 (0 : Fin 1) (0 : Fin 1) (⟨(y 2).val, hy2⟩ : Fin 128) := by
    funext a; apply Fin.ext
    match a with
    | ⟨0, _⟩ => show (y 0).val = 0; omega
    | ⟨1, _⟩ => show (y 1).val = 0; omega
    | ⟨2, _⟩ => rfl
  show out1_2 (iblk1 V c 0 t) ((cfg1.win 2).xinj (grid1.coords t) y) = sumArr V c (((cfg1.win 2).blk t).view.emb y)
  rw [hx, Cert.KernelIdeal.BodyB.out1_2_apply]
  unfold sumArr Cert.Amu.arr3
  have hcol : ∀ n : Fin 4096, iblk1 V c 0 t (ix3 (0 : Fin 1) n (⟨(y 2).val, hy2⟩ : Fin 128))
      = V c main_v13 (ix3 ⟨((((cfg1.win 2).blk t).view.emb y) 0).val, ((((cfg1.win 2).blk t).view.emb y) 0).isLt⟩ n
          ⟨((((cfg1.win 2).blk t).view.emb y) 2).val, ((((cfg1.win 2).blk t).view.emb y) 2).isLt⟩) := by
    intro n
    show V c main_v13 (((cfg1.win 0).blk t).view.emb (ix3 (0 : Fin 1) n (⟨(y 2).val, hy2⟩ : Fin 128))) = V c main_v13 _
    refine congrArg (V c main_v13) (funext fun a => Fin.ext ?_)
    match a with
    | ⟨0, _⟩ =>
      show win1_0.index t (0 : Fin 3) * 1 + 1 * 0 = win1_2.index t (0 : Fin 3) * 1 + 1 * (y 0).val
      omega
    | ⟨1, _⟩ =>
      show win1_0.index t (1 : Fin 3) * 4096 + 1 * n.val = n.val
      omega
    | ⟨2, _⟩ =>
      show win1_0.index t (2 : Fin 3) * 128 + 1 * (y 2).val = win1_2.index t (2 : Fin 3) * 128 + 1 * (y 2).val
      omega
  simp only [hcol]

/-- An index of an output array is in point `t`'s block iff each coordinate is in the block's range on its axis. -/
theorem mem_blk1 (t : Fin cfg1.N) (i : S8x1x128.Idx) :
    i ∈ ((cfg1.win 1).blk t).view.set ↔ ∀ a : Fin 3, win1_1.index t a * S1x1x128.size a ≤ (i a).val ∧ (i a).val < win1_1.index t a * S1x1x128.size a + S1x1x128.size a := by
  show i ∈ ((View.whole main_v14_0).slice (win1_1.rect t)).set ↔ _
  rw [View.set_slice_whole, Rect.mem_set_unit]
  exact Iff.rfl
theorem mem_blk2 (t : Fin cfg1.N) (i : S8x1x128.Idx) :
    i ∈ ((cfg1.win 2).blk t).view.set ↔ ∀ a : Fin 3, win1_2.index t a * S1x1x128.size a ≤ (i a).val ∧ (i a).val < win1_2.index t a * S1x1x128.size a + S1x1x128.size a := by
  show i ∈ ((View.whole main_v14_1).slice (win1_2.rect t)).set ↔ _
  rw [View.set_slice_whole, Rect.mem_set_unit]
  exact Iff.rfl

/-- Every index of an output array is in the block of the point of its batch entry. -/
theorem cover1 (i : S8x1x128.Idx) : ∃ t : Fin cfg1.N, (cfg1.win 1).flush t = true ∧ i ∈ ((cfg1.win 1).blk t).view.set := by
  have h0 : (i 0).val < 8 := (i 0).isLt
  have h1 : (i 1).val < 1 := (i 1).isLt
  have h2 : (i 2).val < 128 := (i 2).isLt
  have hN : (i 0).val < cfg1.N := by show (i 0).val < grid1.N; rw [N_1]; exact h0
  refine ⟨⟨(i 0).val, hN⟩, flush1_1 _, ?_⟩
  rw [mem_blk1]
  obtain ⟨-, -, -, e10, e11, e12, -, -, -⟩ := idx_facts1 ⟨(i 0).val, hN⟩
  intro a
  match a with
  | ⟨0, _⟩ => show win1_1.index ⟨(i 0).val, hN⟩ (0 : Fin 3) * 1 ≤ (i 0).val ∧ (i 0).val < win1_1.index ⟨(i 0).val, hN⟩ (0 : Fin 3) * 1 + 1; rw [show win1_1.index ⟨(i 0).val, hN⟩ (0 : Fin 3) = (i 0).val from e10]; constructor <;> omega
  | ⟨1, _⟩ => show win1_1.index ⟨(i 0).val, hN⟩ (1 : Fin 3) * 1 ≤ (i 1).val ∧ (i 1).val < win1_1.index ⟨(i 0).val, hN⟩ (1 : Fin 3) * 1 + 1; rw [e11]; constructor <;> omega
  | ⟨2, _⟩ => show win1_1.index ⟨(i 0).val, hN⟩ (2 : Fin 3) * 128 ≤ (i 2).val ∧ (i 2).val < win1_1.index ⟨(i 0).val, hN⟩ (2 : Fin 3) * 128 + 128; rw [e12]; constructor <;> omega
theorem cover2 (i : S8x1x128.Idx) : ∃ t : Fin cfg1.N, (cfg1.win 2).flush t = true ∧ i ∈ ((cfg1.win 2).blk t).view.set := by
  have h0 : (i 0).val < 8 := (i 0).isLt
  have h1 : (i 1).val < 1 := (i 1).isLt
  have h2 : (i 2).val < 128 := (i 2).isLt
  have hN : (i 0).val < cfg1.N := by show (i 0).val < grid1.N; rw [N_1]; exact h0
  refine ⟨⟨(i 0).val, hN⟩, flush1_2 _, ?_⟩
  rw [mem_blk2]
  obtain ⟨-, -, -, -, -, -, e20, e21, e22⟩ := idx_facts1 ⟨(i 0).val, hN⟩
  intro a
  match a with
  | ⟨0, _⟩ => show win1_2.index ⟨(i 0).val, hN⟩ (0 : Fin 3) * 1 ≤ (i 0).val ∧ (i 0).val < win1_2.index ⟨(i 0).val, hN⟩ (0 : Fin 3) * 1 + 1; rw [show win1_2.index ⟨(i 0).val, hN⟩ (0 : Fin 3) = (i 0).val from e20]; constructor <;> omega
  | ⟨1, _⟩ => show win1_2.index ⟨(i 0).val, hN⟩ (1 : Fin 3) * 1 ≤ (i 1).val ∧ (i 1).val < win1_2.index ⟨(i 0).val, hN⟩ (1 : Fin 3) * 1 + 1; rw [e21]; constructor <;> omega
  | ⟨2, _⟩ => show win1_2.index ⟨(i 0).val, hN⟩ (2 : Fin 3) * 128 ≤ (i 2).val ∧ (i 2).val < win1_2.index ⟨(i 0).val, hN⟩ (2 : Fin 3) * 128 + 128; rw [e22]; constructor <;> omega

/-- After the launch the array of maxima is `maxArr` and the array of sums is `sumArr` of the logits it found. -/
theorem final1 (c : Dev nD) : (dat1 V c).arrAt 1 cfg1.N = maxArr V c :=
  (dat1 V c).arrAt_eq_of_cover 1 (maxArr V c) (fun t _ => flushed1_eq V c t) cover1
theorem final2 (c : Dev nD) : (dat1 V c).arrAt 2 cfg1.N = sumArr V c :=
  (dat1 V c).arrAt_eq_of_cover 2 (sumArr V c) (fun t _ => flushed2_eq V c t) cover2

end Cert.KernelIdeal.Final1

end
-- ==== Proof.BodyC.lean ====
/-
  What the body of the third kernel leaves in its output block, read at one index.

  The body takes a block of 512 rows of logits with the columns' maxima and sums of exponentials, forms each row's
  softmax entries, divides the row by a small constant plus its own sum, applies two linear maps (128 → 1024 and
  1024 → 1024, each a sum over the contracted coordinate), normalises the resulting row of 1024 entries (mean,
  variance, reciprocal root, scale and shift), adds the input row back and takes the positive part.  Read at row `r`
  and lane `e`, every operation is its textbook form on the extended reals: a cast that drops or adds a unit axis reads
  the same entry, a row or column broadcast reads the one row or column, a lane sum is the finite sum over the lane
  coordinate, a product of matrices is the sum over the contracted coordinate.  Put together, the entry is the
  specification's row function applied to the row's softmax entries.
-/
import proofs.«172186_j39152921870436_2_alg».proof.Proof.Gen.KernelIdeal.Frame
import proofs.«172186_j39152921870436_2_alg».proof.Proof.Spec
import proofs.«172186_j39152921870436_2_alg».proof.Proof.LibKeepdims
import Idealize.ShloMosaic.Lib.ValueLayout
import Idealize.ShloMosaic.PureOps.Ideal.Laws

noncomputable section

namespace Cert.KernelIdeal.BodyC

open Idealize.ShloMosaic Idealize.ShloMosaic.ValueIdx Cert.KernelIdeal Cert.KernelIdeal.Gen
open scoped BigOperators

/-! ## The two products of matrices, as sums over the contracted coordinate -/

/-- The first product's record, named shortly. -/
abbrev D1 : DotDims S512x128 S128x1024 S512x1024 := dot_S512x128_S128x1024_S512x1024_1_0_0_1_n_n
/-- The second product's record. -/
abbrev D2 : DotDims S512x1024 S1024x1024 S512x1024 := dot_S512x1024_S1024x1024_S512x1024_1_0_0_1_n_n

theorem D1_lhs0 (i : S512x1024.Idx) (q : D1.contr.Idx) : (D1.lhsIdx i q 0).val = (i 0).val := by
  unfold DotDims.lhsIdx
  rw [dif_neg (show ¬(0 : Fin S512x128.rank) ∈ D1.lhsBatch by decide), dif_pos (show (0 : Fin S512x128.rank) ∈ D1.lhsNonContracting by decide)]
  rfl
theorem D1_lhs1 (i : S512x1024.Idx) (q : D1.contr.Idx) : (D1.lhsIdx i q 1).val = (q ⟨0, by decide⟩).val :=
  D1.lhsIdx_val_of_single rfl i q
theorem D1_rhs0 (i : S512x1024.Idx) (q : D1.contr.Idx) : (D1.rhsIdx i q 0).val = (q ⟨0, by decide⟩).val :=
  D1.rhsIdx_val_of_single rfl i q
theorem D1_rhs1 (i : S512x1024.Idx) (q : D1.contr.Idx) : (D1.rhsIdx i q 1).val = (i 1).val := by
  unfold DotDims.rhsIdx
  rw [dif_neg (show ¬(1 : Fin S128x1024.rank) ∈ D1.rhsBatch by decide), dif_pos (show (1 : Fin S128x1024.rank) ∈ D1.rhsNonContracting by decide)]
  rfl

/-- The 128-term product: entry `(p, d)` is the sum over `k` of the left row's entry `k` times the right column's. -/
theorem matmul1_apply (a : FVec Ideal S512x128 .bf16) (w : FVec Ideal S128x1024 .bf16) (p : Fin 512) (d : Fin 1024) :
    matmul D1 none a w (constant S512x1024 .f32 0x00000000#32) (ix2 p d) = ∑ k : Fin 128, a (ix2 p k) * w (ix2 k d) := by
  refine (Ideal.matmul_constant_zero_apply D1 none a w (ix2 p d)).trans ?_
  rw [← Equiv.sum_comp (contrEquiv1 D1 128 rfl rfl).symm]
  refine Finset.sum_congr rfl fun k _ => ?_
  have hk := contrEquiv1_symm_val D1 128 rfl rfl k
  have el : D1.lhsIdx (ix2 p d) ((contrEquiv1 D1 128 rfl rfl).symm k) = ix2 p k := funext fun ax => Fin.ext (by
    match ax with
    | ⟨0, _⟩ => exact D1_lhs0 _ _
    | ⟨1, _⟩ => exact (D1_lhs1 _ _).trans hk)
  have er : D1.rhsIdx (ix2 p d) ((contrEquiv1 D1 128 rfl rfl).symm k) = ix2 k d := funext fun ax => Fin.ext (by
    match ax with
    | ⟨0, _⟩ => exact (D1_rhs0 _ _).trans hk
    | ⟨1, _⟩ => exact D1_rhs1 _ _)
  rw [el, er]

theorem D2_lhs0 (i : S512x1024.Idx) (q : D2.contr.Idx) : (D2.lhsIdx i q 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem D2_lhs1 (i : S512x1024.Idx) (q : D2.contr.Idx) : (D2.lhsIdx i q 1).val = (q ⟨0, by decide⟩).val :=
  D2.lhsIdx_val_of_single rfl i q
theorem D2_rhs0 (i : S512x1024.Idx) (q : D2.contr.Idx) : (D2.rhsIdx i q 0).val = (q ⟨0, by decide⟩).val :=
  D2.rhsIdx_val_of_single rfl i q
theorem D2_rhs1 (i : S512x1024.Idx) (q : D2.contr.Idx) : (D2.rhsIdx i q 1).val = (i 1).val := by
  unfold DotDims.rhsIdx
  rw [dif_neg (show ¬(1 : Fin S1024x1024.rank) ∈ D2.rhsBatch by decide), dif_pos (show (1 : Fin S1024x1024.rank) ∈ D2.rhsNonContracting by decide)]
  rfl

/-- The 1024-term product, likewise. -/
theorem matmul2_apply (a : FVec Ideal S512x1024 .bf16) (w : FVec Ideal S1024x1024 .bf16) (p : Fin 512) (e : Fin 1024) :
    matmul D2 none a w (constant S512x1024 .f32 0x00000000#32) (ix2 p e) = ∑ d : Fin 1024, a (ix2 p d) * w (ix2 d e) := by
  refine (Ideal.matmul_constant_zero_apply D2 none a w (ix2 p e)).trans ?_
  rw [← Equiv.sum_comp (contrEquiv1 D2 1024 rfl rfl).symm]
  refine Finset.sum_congr rfl fun k _ => ?_
  have hk := contrEquiv1_symm_val D2 1024 rfl rfl k
  have el : D2.lhsIdx (ix2 p e) ((contrEquiv1 D2 1024 rfl rfl).symm k) = ix2 p k := funext fun ax => Fin.ext (by
    match ax with
    | ⟨0, _⟩ => exact D2_lhs0 _ _
    | ⟨1, _⟩ => exact (D2_lhs1 _ _).trans hk)
  have er : D2.rhsIdx (ix2 p e) ((contrEquiv1 D2 1024 rfl rfl).symm k) = ix2 k e := funext fun ax => Fin.ext (by
    match ax with
    | ⟨0, _⟩ => exact (D2_rhs0 _ _).trans hk
    | ⟨1, _⟩ => exact D2_rhs1 _ _)
  rw [el, er]

/-! ## The row's softmax entries and their normalisation -/

/-- The softmax entries of row p of the block: from the block of logits, the columns' maxima and the columns' sums
    of exponentials. -/
def srow (v0 : Vec Ideal S1x512x128 .f32) (v2 v4 : Vec Ideal S1x1x128 .f32) (p : Fin 512) (k : Fin 128) : EReal :=
  Cert.Amu.soft (v0 (ix3 (0 : Fin 1) p k)) (v2 (ix3 (0 : Fin 1) (0 : Fin 1) k)) (v4 (ix3 (0 : Fin 1) (0 : Fin 1) k))

/-- The block of softmax entries as the kernel forms it (the leading unit axes dropped, the two statistics rows
    broadcast over the 512 rows), read at (p, k). -/
theorem soft_apply (v0 : Vec Ideal S1x512x128 .f32) (v2 v4 : Vec Ideal S1x1x128 .f32)
    (h1 : S1x512x128.ShapeCasts S512x128) (h2 : S1x1x128.ShapeCasts S1x128) (h3 : S1x128.Broadcasts S512x128)
    (p : Fin 512) (k : Fin 128) :
    (divf (exp (subf (shapeCast S512x128 v0 h1) (broadcastTo S512x128 (shapeCast S1x128 v2 h2) h3)))
        (broadcastTo S512x128 (shapeCast S1x128 v4 h2) h3) : FVec Ideal S512x128 .f32) (ix2 p k) = srow v0 v2 v4 p k := by
  show Ideal.div (Ideal.exp (shapeCast S512x128 v0 h1 (ix2 p k) - broadcastTo S512x128 (shapeCast S1x128 v2 h2) h3 (ix2 p k)))
      (broadcastTo S512x128 (shapeCast S1x128 v4 h2) h3 (ix2 p k)) = _
  rw [shapeCast_1ab_ab_apply, broadcastTo_1b_ab_apply, broadcastTo_1b_ab_apply, shapeCast_1ab_ab_apply, shapeCast_1ab_ab_apply]
  rfl

/-- A block of 512 rows of 128 entries, each row divided by the small constant plus its own sum (the sum kept as a
    column and broadcast back over the lanes), read at (p, k). -/
theorem l1_apply (s : FVec Ideal S512x128 .f32) (hr : S512x128.Reduces [1] S512) (hφ : FKind.Formats .f32)
    (hacc : (0x00000000#32 : BitVec (FTy.bits .f32)) = FKind.add.neutral .f32 hφ) (hc : S512.ShapeCasts S512x1)
    (hb : S512x1.Broadcasts S512x128) (p : Fin 512) (k : Fin 128) :
    divf s (broadcastTo S512x128 (addf (broadcast S512x1 (Scalar.ofBits .f32 0x3089705F#32 : Ideal .f32))
        (shapeCast S512x1 (multiReduction .add [1] S512 s 0x00000000#32 hr hφ hacc) hc)) hb) (ix2 p k)
      = Cert.Amu.l1 (fun j => s (ix2 p j)) k := by
  show Ideal.div (s (ix2 p k)) (broadcastTo S512x128 _ hb (ix2 p k)) = _
  rw [Cert.Keepdims.broadcastTo_a1_ab_apply]
  show Ideal.div (s (ix2 p k)) (Ideal.ofBits .f32 0x3089705F#32 + shapeCast S512x1 _ hc (ix2 p (0 : Fin 1))) = _
  rw [Cert.Keepdims.shapeCast_a_a1_apply, Cert.Keepdims.multiReduction_add_rows]
  rfl

/-! ## The two linear maps -/

/-- The row of 1024 entries the two linear maps produce from row p of the block. -/
def yrow (v0 : Vec Ideal S1x512x128 .f32) (v2 v4 : Vec Ideal S1x1x128 .f32) (v18 : Vec Ideal S128x1024 .bf16)
    (v22 : Vec Ideal S1024x1024 .bf16) (p : Fin 512) (e : Fin 1024) : EReal :=
  Cert.Amu.dot (fun d => Cert.Amu.dot (Cert.Amu.l1 (srow v0 v2 v4 p)) (fun k => v18 (ix2 k d))) (fun d => v22 (ix2 d e))

/-- The second product's result, read at (p, e), is that row's entry e. -/
theorem pay2_apply (v0 : Vec Ideal S1x512x128 .f32) (v2 v4 : Vec Ideal S1x1x128 .f32) (v18 : Vec Ideal S128x1024 .bf16)
    (v22 : Vec Ideal S1024x1024 .bf16) (p : Fin 512) (e : Fin 1024) :
    k2_pay2 (F := Ideal) v0 v2 v4 v18 v22 (ix2 p e) = yrow v0 v2 v4 v18 v22 p e := by
  refine (matmul2_apply _ _ p e).trans ?_
  unfold yrow Cert.Amu.dot
  refine Finset.sum_congr rfl fun d _ => ?_
  refine congrArg₂ (· * ·) ?_ ?_
  · refine (truncf_apply (ψ := .bf16) (φ := .f32) _ _ _).trans ?_
    refine (matmul1_apply _ _ p d).trans ?_
    refine Finset.sum_congr rfl fun k _ => ?_
    refine congrArg₂ (· * ·) ?_ ?_
    · refine (truncf_apply (ψ := .bf16) (φ := .f32) _ _ _).trans ?_
      refine (l1_apply _ _ _ _ _ _ p k).trans ?_
      refine congrArg (fun s => Cert.Amu.l1 s k) (funext fun j => ?_)
      exact soft_apply v0 v2 v4 _ _ _ p j
    · exact congrFun (shapeCast_self _ _) _
  · exact congrFun (shapeCast_self _ _) _

/-! ## The row's mean and variance -/

/-- The lane sums of a block of 512 rows of 1024 entries, kept as a column and divided by the word of 1024: at row p,
    the mean of that row. -/
theorem mean_apply (y : FVec Ideal S512x1024 .f32) (hr : S512x1024.Reduces [1] S512) (hφ : FKind.Formats .f32)
    (hacc : (0x00000000#32 : BitVec (FTy.bits .f32)) = FKind.add.neutral .f32 hφ) (hc : S512.ShapeCasts S512x1)
    (p : Fin 512) (u : Fin 1) :
    divf (shapeCast S512x1 (multiReduction .add [1] S512 y 0x00000000#32 hr hφ hacc) hc)
        (broadcast S512x1 (Scalar.ofBits .f32 0x44800000#32 : Ideal .f32)) (ix2 p u)
      = Cert.Amu.mean (fun e => y (ix2 p e)) := by
  show Ideal.div (shapeCast S512x1 _ hc (ix2 p u)) (Ideal.ofBits .f32 0x44800000#32) = _
  rw [Cert.Keepdims.shapeCast_a_a1_apply, Cert.Keepdims.multiReduction_add_rows]
  rfl

/-- The squared deviations from a column of means broadcast over the lanes, summed over the lanes, kept as a column
    and divided by the word of 1024: at row p, the mean of the row's squared deviations from that row's entry of the
    column. -/
theorem var_apply (y : FVec Ideal S512x1024 .f32) (mcol : FVec Ideal S512x1 .f32) (hb : S512x1.Broadcasts S512x1024)
    (hr : S512x1024.Reduces [1] S512) (hφ : FKind.Formats .f32)
    (hacc : (0x00000000#32 : BitVec (FTy.bits .f32)) = FKind.add.neutral .f32 hφ) (hc : S512.ShapeCasts S512x1)
    (p : Fin 512) (u : Fin 1) :
    divf (shapeCast S512x1 (multiReduction .add [1] S512
          (mulf (subf y (broadcastTo S512x1024 mcol hb)) (subf y (broadcastTo S512x1024 mcol hb))) 0x00000000#32 hr hφ hacc) hc)
        (broadcast S512x1 (Scalar.ofBits .f32 0x44800000#32 : Ideal .f32)) (ix2 p u)
      = Ideal.div (∑ k : Fin 1024, (y (ix2 p k) - mcol (ix2 p (0 : Fin 1))) * (y (ix2 p k) - mcol (ix2 p (0 : Fin 1))))
          Cert.Amu.c1024 := by
  show Ideal.div (shapeCast S512x1 _ hc (ix2 p u)) (Ideal.ofBits .f32 0x44800000#32) = _
  rw [Cert.Keepdims.shapeCast_a_a1_apply, Cert.Keepdims.multiReduction_add_rows]
  refine congrArg (fun t => Ideal.div t Cert.Amu.c1024) (Finset.sum_congr rfl fun k _ => ?_)
  show (y (ix2 p k) - broadcastTo S512x1024 mcol hb (ix2 p k)) * (y (ix2 p k) - broadcastTo S512x1024 mcol hb (ix2 p k)) = _
  rw [Cert.Keepdims.broadcastTo_a1_ab_apply]

/-- The column of row means, read at row p. -/
theorem pay3_apply (v0 : Vec Ideal S1x512x128 .f32) (v2 v4 : Vec Ideal S1x1x128 .f32) (v18 : Vec Ideal S128x1024 .bf16)
    (v22 : Vec Ideal S1024x1024 .bf16) (p : Fin 512) (u : Fin 1) :
    k2_pay3 (F := Ideal) v0 v2 v4 v18 v22 (ix2 p u) = Cert.Amu.mean (yrow v0 v2 v4 v18 v22 p) := by
  refine (mean_apply (k2_pay2 (F := Ideal) v0 v2 v4 v18 v22) _ _ _ _ p u).trans ?_
  exact congrArg Cert.Amu.mean (funext fun e => pay2_apply v0 v2 v4 v18 v22 p e)

/-- The column of row variances, read at row p. -/
theorem pay4_apply (v0 : Vec Ideal S1x512x128 .f32) (v2 v4 : Vec Ideal S1x1x128 .f32) (v18 : Vec Ideal S128x1024 .bf16)
    (v22 : Vec Ideal S1024x1024 .bf16) (p : Fin 512) (u : Fin 1) :
    k2_pay4 (F := Ideal) v0 v2 v4 v18 v22 (ix2 p u) = Cert.Amu.var (yrow v0 v2 v4 v18 v22 p) := by
  refine (var_apply (k2_pay2 (F := Ideal) v0 v2 v4 v18 v22) (k2_pay3 (F := Ideal) v0 v2 v4 v18 v22) _ _ _ _ _ p u).trans ?_
  rw [pay3_apply]
  unfold Cert.Amu.var
  refine congrArg (fun t => Ideal.div t Cert.Amu.c1024) (Finset.sum_congr rfl fun k _ => ?_)
  rw [pay2_apply]

/-- The row means broadcast over the lanes, read at (p, e). -/
theorem pay5_apply (v0 : Vec Ideal S1x512x128 .f32) (v2 v4 : Vec Ideal S1x1x128 .f32) (v18 : Vec Ideal S128x1024 .bf16)
    (v22 : Vec Ideal S1024x1024 .bf16) (p : Fin 512) (e : Fin 1024) :
    k2_pay5 (F := Ideal) v0 v2 v4 v18 v22 (ix2 p e) = Cert.Amu.mean (yrow v0 v2 v4 v18 v22 p) := by
  refine (Cert.Keepdims.broadcastTo_a1_ab_apply (k2_pay3 (F := Ideal) v0 v2 v4 v18 v22) broadcasts_S512x1_S512x1024 p e).trans ?_
  exact pay3_apply v0 v2 v4 v18 v22 p (0 : Fin 1)

/-! ## The normalisation, the input row added back, the positive part -/

/-- The stored value, read at (0, p, e), from the product's block, the column of variances, the broadcast means, the
    scale and shift rows and the input block. -/
theorem pay1_apply (v24 : FVec Ideal S512x1024 .f32) (v35 : FVec Ideal S512x1 .f32) (v36 : FVec Ideal S512x1024 .f32)
    (v43 v47 : Vec Ideal S1x1024 .f32) (v51 : Vec Ideal S1x512x1024 .f32) (p : Fin 512) (e : Fin 1024) :
    k2_pay1 (F := Ideal) v24 v35 v36 v43 v47 v51 (ix3 (0 : Fin 1) p e)
      = max ((v24 (ix2 p e) - v36 (ix2 p e)) * Ideal.rsqrt (v35 (ix2 p (0 : Fin 1)) + Cert.Amu.epsLn) * v43 (ix2 (0 : Fin 1) e)
          + v47 (ix2 (0 : Fin 1) e) + v51 (ix3 (0 : Fin 1) p e)) Cert.Amu.zero := by
  unfold k2_pay1
  refine (shapeCast_ab_1ab_apply _ _ (0 : Fin 1) p e).trans ?_
  show max ((v24 (ix2 p e) - v36 (ix2 p e))
          * broadcastTo S512x1024 (rsqrt (addf v35 (broadcast S512x1 (Scalar.ofBits .f32 0x3727C5AC#32 : Ideal .f32)))) _ (ix2 p e)
          * broadcastTo S512x1024 (shapeCast S1x1024 v43 _) _ (ix2 p e)
        + broadcastTo S512x1024 (shapeCast S1x1024 v47 _) _ (ix2 p e)
        + shapeCast S512x1024 v51 _ (ix2 p e)) (Ideal.ofBits .f32 0x00000000#32) = _
  rw [Cert.Keepdims.broadcastTo_a1_ab_apply, broadcastTo_1b_ab_apply, broadcastTo_1b_ab_apply, shapeCast_self, shapeCast_self,
    shapeCast_1ab_ab_apply]
  rfl

/-! ## The output block at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in its output block, read at row r and lane e: the specification's row function applied to
    the row's softmax entries, the two weights read by coordinates, the scale and shift rows and the input row. -/
theorem out2_8_apply (x0 : Vec Ideal S1x512x128 .f32) (x1 x2 : Vec Ideal S1x1x128 .f32) (x3 : Vec Ideal S1x512x1024 .f32)
    (x4 : Vec Ideal S128x1024 .bf16) (x5 : Vec Ideal S1024x1024 .bf16) (x6 x7 : Vec Ideal S1x1024 .f32) (r : Fin 512) (e : Fin 1024) :
    Gen.out2_8 (F := Ideal) x0 x1 x2 x3 x4 x5 x6 x7 (ix3 (0 : Fin 1) r e)
      = Cert.Amu.outRow (fun k => Cert.Amu.soft (x0 (ix3 (0 : Fin 1) r k)) (x1 (ix3 (0 : Fin 1) (0 : Fin 1) k)) (x2 (ix3 (0 : Fin 1) (0 : Fin 1) k)))
          (fun d k => x4 (ix2 k d)) (fun e' d => x5 (ix2 d e')) (fun e' => x6 (ix2 (0 : Fin 1) e')) (fun e' => x7 (ix2 (0 : Fin 1) e'))
          (fun e' => x3 (ix3 (0 : Fin 1) r e')) e := by
  unfold Gen.out2_8
  rw [View.canon_unit_zero hz3]
  simp only [View.ld_unit_zero (S := S1x512x128) hz3, View.ld_unit_zero (S := S1x1x128) hz3, View.ld_unit_zero (S := S128x1024) hz2,
    View.ld_unit_zero (S := S1024x1024) hz2, View.ld_unit_zero (S := S1x1024) hz2, View.ld_unit_zero (S := S1x512x1024) hz3]
  refine (pay1_apply _ _ _ _ _ _ r e).trans ?_
  rw [pay2_apply, pay4_apply, pay5_apply]
  rfl

end Cert.KernelIdeal.BodyC

end
-- ==== Proof.Final2.lean ====
/-
  The third launch, from blocks to the array.

  The launch has 8 × 8 points; point t has coordinates (t / 8, t % 8) = (b, n): batch entry b, block n of 512 rows.
  At that point it reads the block [1, 512, 128] of the logits at (b, n, 0), the blocks [1, 1, 128] of the column
  maxima and of the column sums at (b, 0, 0), the block [1, 512, 1024] of the input at (b, n, 0) and the whole of the two
  weights and of the scale and shift rows, and writes back the block [1, 512, 1024] of the output at (b, n, 0).  A
  block's element sits, on each axis, at block index × block size + its coordinate.  The 64 output blocks tile the
  output, so after the launch the output is one function of the arrays as the launch found them: at (b, n, e) the
  specification's row function of the softmax entries of position n of batch entry b.
-/
import proofs.«172186_j39152921870436_2_alg».proof.Proof.Gen.KernelIdeal.Frame
import proofs.«172186_j39152921870436_2_alg».proof.Proof.BodyC
import proofs.«172186_j39152921870436_2_alg».proof.Proof.Spec
import Idealize.ShloMosaic.Lib.Pipeline.Value

set_option maxRecDepth 16384

noncomputable section

namespace Cert.KernelIdeal.Final2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The output array as a function of the arrays the launch finds: at (b, n, e) the row function of the softmax
    entries of position n of batch entry b, the two weights read by coordinates, the scale and shift rows and the
    input row. -/
def outArr (c : Dev nD) : S8x4096x1024.Idx → EReal :=
  Cert.Amu.arr3 (fun b n e => Cert.Amu.outRow (fun k => Cert.Amu.soft (V c main_v13 (ix3 b n k)) (V c main_v14_0 (ix3 b (0 : Fin 1) k)) (V c main_v14_1 (ix3 b (0 : Fin 1) k)))
    (fun d k => V c main_v10 (ix2 k d)) (fun e' d => V c main_v12 (ix2 d e')) (fun e' => V c main_v3 (ix2 (0 : Fin 1) e')) (fun e' => V c main_v4 (ix2 (0 : Fin 1) e'))
    (fun e' => V c main_arg0 (ix3 b n e')) e)

/-- The printed index maps over the grid: point t reads and writes the row blocks at (t / 8, t % 8, 0), the column
    statistics at (t / 8, 0, 0), and the whole of every other array. -/
theorem idx_facts2 : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ win2_3.index t (0 : Fin 3) = t.val / 8 ∧ win2_3.index t (1 : Fin 3) = t.val % 8 ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 3) = t.val / 8 ∧ win2_8.index t (1 : Fin 3) = t.val % 8 ∧ win2_8.index t (2 : Fin 3) = 0 :=
  (by decide +kernel : ∀ t : Fin grid2.N, _)

/-- What point t writes back to the output is block t of outArr. -/
theorem flushed8_eq (c : Dev nD) (t : Fin cfg2.N) :
    (dat2 V c).flushed 8 t = ((cfg2.win 8).blk t).view.read (Elt Ideal) (outArr V c) := by
  show (cfg2.win 8).cut (grid2.coords t) ((dat2 V c).after 8 t) = _
  rw [after2_8]
  funext y
  obtain ⟨e00, e01, e02, e10, e11, e12, e20, e21, e22, e30, e31, e32, e40, e41, e50, e51, e60, e61, e70, e71, e80, e81, e82⟩ := idx_facts2 t
  have hy0 : (y 0).val < 1 := (y 0).isLt
  have hy1 : (y 1).val < 512 := (y 1).isLt
  have hy2 : (y 2).val < 1024 := (y 2).isLt
  have hx : (cfg2.win 8).xinj (grid2.coords t) y = ix3 (0 : Fin 1) (⟨(y 1).val, hy1⟩ : Fin 512) (⟨(y 2).val, hy2⟩ : Fin 1024) := by
    funext a; apply Fin.ext
    match a with
    | ⟨0, _⟩ => show (y 0).val = 0; omega
    | ⟨1, _⟩ => rfl
    | ⟨2, _⟩ => rfl
  show out2_8 (iblk2 V c 0 t) (iblk2 V c 1 t) (iblk2 V c 2 t) (iblk2 V c 3 t) (iblk2 V c 4 t) (iblk2 V c 5 t) (iblk2 V c 6 t) (iblk2 V c 7 t)
      ((cfg2.win 8).xinj (grid2.coords t) y) = outArr V c (((cfg2.win 8).blk t).view.emb y)
  rw [hx, Cert.KernelIdeal.BodyC.out2_8_apply]
  unfold outArr Cert.Amu.arr3
  have hJ0 : ((((cfg2.win 8).blk t).view.emb y) 0).val = win2_8.index t (0 : Fin 3) * 1 + 1 * (y 0).val := rfl
  have hJ1 : ((((cfg2.win 8).blk t).view.emb y) 1).val = win2_8.index t (1 : Fin 3) * 512 + 1 * (y 1).val := rfl
  have hJ2 : ((((cfg2.win 8).blk t).view.emb y) 2).val = win2_8.index t (2 : Fin 3) * 1024 + 1 * (y 2).val := rfl
  generalize ((cfg2.win 8).blk t).view.emb y = J at hJ0 hJ1 hJ2 ⊢
  have h0 : ∀ k : Fin 128, iblk2 V c 0 t (ix3 (0 : Fin 1) (⟨(y 1).val, hy1⟩ : Fin 512) k) = V c main_v13 (ix3 ⟨(J 0).val, (J 0).isLt⟩ ⟨(J 1).val, (J 1).isLt⟩ k) := by
    intro k
    show V c main_v13 (((cfg2.win 0).blk t).view.emb (ix3 (0 : Fin 1) (⟨(y 1).val, hy1⟩ : Fin 512) k)) = V c main_v13 _
    refine congrArg (V c main_v13) (funext fun a => Fin.ext ?_)
    match a with
    | ⟨0, _⟩ => show win2_0.index t (0 : Fin 3) * 1 + 1 * 0 = (J 0).val; omega
    | ⟨1, _⟩ => show win2_0.index t (1 : Fin 3) * 512 + 1 * (y 1).val = (J 1).val; omega
    | ⟨2, _⟩ => show win2_0.index t (2 : Fin 3) * 128 + 1 * k.val = k.val; omega
  have h1 : ∀ k : Fin 128, iblk2 V c 1 t (ix3 (0 : Fin 1) (0 : Fin 1) k) = V c main_v14_0 (ix3 ⟨(J 0).val, (J 0).isLt⟩ (0 : Fin 1) k) := by
    intro k
    show V c main_v14_0 (((cfg2.win 1).blk t).view.emb (ix3 (0 : Fin 1) (0 : Fin 1) k)) = V c main_v14_0 _
    refine congrArg (V c main_v14_0) (funext fun a => Fin.ext ?_)
    match a with
    | ⟨0, _⟩ => show win2_1.index t (0 : Fin 3) * 1 + 1 * 0 = (J 0).val; omega
    | ⟨1, _⟩ => show win2_1.index t (1 : Fin 3) * 1 + 1 * 0 = 0; omega
    | ⟨2, _⟩ => show win2_1.index t (2 : Fin 3) * 128 + 1 * k.val = k.val; omega
  have h2 : ∀ k : Fin 128, iblk2 V c 2 t (ix3 (0 : Fin 1) (0 : Fin 1) k) = V c main_v14_1 (ix3 ⟨(J 0).val, (J 0).isLt⟩ (0 : Fin 1) k) := by
    intro k
    show V c main_v14_1 (((cfg2.win 2).blk t).view.emb (ix3 (0 : Fin 1) (0 : Fin 1) k)) = V c main_v14_1 _
    refine congrArg (V c main_v14_1) (funext fun a => Fin.ext ?_)
    match a with
    | ⟨0, _⟩ => show win2_2.index t (0 : Fin 3) * 1 + 1 * 0 = (J 0).val; omega
    | ⟨1, _⟩ => show win2_2.index t (1 : Fin 3) * 1 + 1 * 0 = 0; omega
    | ⟨2, _⟩ => show win2_2.index t (2 : Fin 3) * 128 + 1 * k.val = k.val; omega
  have h3 : ∀ e' : Fin 1024, iblk2 V c 3 t (ix3 (0 : Fin 1) (⟨(y 1).val, hy1⟩ : Fin 512) e') = V c main_arg0 (ix3 ⟨(J 0).val, (J 0).isLt⟩ ⟨(J 1).val, (J 1).isLt⟩ e') := by
    intro e'
    show V c main_arg0 (((cfg2.win 3).blk t).view.emb (ix3 (0 : Fin 1) (⟨(y 1).val, hy1⟩ : Fin 512) e')) = V c main_arg0 _
    refine congrArg (V c main_arg0) (funext fun a => Fin.ext ?_)
    match a with
    | ⟨0, _⟩ => show win2_3.index t (0 : Fin 3) * 1 + 1 * 0 = (J 0).val; omega
    | ⟨1, _⟩ => show win2_3.index t (1 : Fin 3) * 512 + 1 * (y 1).val = (J 1).val; omega
    | ⟨2, _⟩ => show win2_3.index t (2 : Fin 3) * 1024 + 1 * e'.val = e'.val; omega
  have h4 : ∀ (k : Fin 128) (d : Fin 1024), iblk2 V c 4 t (ix2 k d) = V c main_v10 (ix2 k d) := by
    intro k d
    show V c main_v10 (((cfg2.win 4).blk t).view.emb (ix2 k d)) = V c main_v10 _
    refine congrArg (V c main_v10) (funext fun a => Fin.ext ?_)
    match a with
    | ⟨0, _⟩ => show win2_4.index t (0 : Fin 2) * 128 + 1 * k.val = k.val; omega
    | ⟨1, _⟩ => show win2_4.index t (1 : Fin 2) * 1024 + 1 * d.val = d.val; omega
  have h5 : ∀ (d : Fin 1024) (e' : Fin 1024), iblk2 V c 5 t (ix2 d e') = V c main_v12 (ix2 d e') := by
    intro d e'
    show V c main_v12 (((cfg2.win 5).blk t).view.emb (ix2 d e')) = V c main_v12 _
    refine congrArg (V c main_v12) (funext fun a => Fin.ext ?_)
    match a with
    | ⟨0, _⟩ => show win2_5.index t (0 : Fin 2) * 1024 + 1 * d.val = d.val; omega
    | ⟨1, _⟩ => show win2_5.index t (1 : Fin 2) * 1024 + 1 * e'.val = e'.val; omega
  have h6 : ∀ e' : Fin 1024, iblk2 V c 6 t (ix2 (0 : Fin 1) e') = V c main_v3 (ix2 (0 : Fin 1) e') := by
    intro e'
    show V c main_v3 (((cfg2.win 6).blk t).view.emb (ix2 (0 : Fin 1) e')) = V c main_v3 _
    refine congrArg (V c main_v3) (funext fun a => Fin.ext ?_)
    match a with
    | ⟨0, _⟩ => show win2_6.index t (0 : Fin 2) * 1 + 1 * 0 = 0; omega
    | ⟨1, _⟩ => show win2_6.index t (1 : Fin 2) * 1024 + 1 * e'.val = e'.val; omega
  have h7 : ∀ e' : Fin 1024, iblk2 V c 7 t (ix2 (0 : Fin 1) e') = V c main_v4 (ix2 (0 : Fin 1) e') := by
    intro e'
    show V c main_v4 (((cfg2.win 7).blk t).view.emb (ix2 (0 : Fin 1) e')) = V c main_v4 _
    refine congrArg (V c main_v4) (funext fun a => Fin.ext ?_)
    match a with
    | ⟨0, _⟩ => show win2_7.index t (0 : Fin 2) * 1 + 1 * 0 = 0; omega
    | ⟨1, _⟩ => show win2_7.index t (1 : Fin 2) * 1024 + 1 * e'.val = e'.val; omega
  have hE : (⟨(y 2).val, hy2⟩ : Fin 1024) = ⟨(J 2).val, (J 2).isLt⟩ := Fin.ext (by show (y 2).val = (J 2).val; omega)
  simp only [h0, h1, h2, h3, h4, h5, h6, h7]
  rw [hE]

/-- An index of the output is in point t's block iff each coordinate is in the block's range on its axis. -/
theorem mem_blk8 (t : Fin cfg2.N) (i : S8x4096x1024.Idx) :
    i ∈ ((cfg2.win 8).blk t).view.set ↔ ∀ a : Fin 3, win2_8.index t a * S1x512x1024.size a ≤ (i a).val ∧ (i a).val < win2_8.index t a * S1x512x1024.size a + S1x512x1024.size a := by
  show i ∈ ((View.whole main_v15).slice (win2_8.rect t)).set ↔ _
  rw [View.set_slice_whole, Rect.mem_set_unit]
  exact Iff.rfl

/-- Every index (b, n, e) of the output is in the block of the point b · 8 + n / 512. -/
theorem cover8 (i : S8x4096x1024.Idx) : ∃ t : Fin cfg2.N, (cfg2.win 8).flush t = true ∧ i ∈ ((cfg2.win 8).blk t).view.set := by
  have h0 : (i 0).val < 8 := (i 0).isLt
  have h1 : (i 1).val < 4096 := (i 1).isLt
  have h2 : (i 2).val < 1024 := (i 2).isLt
  have hN : (i 0).val * 8 + (i 1).val / 512 < cfg2.N := by show (i 0).val * 8 + (i 1).val / 512 < grid2.N; rw [N_2]; omega
  refine ⟨⟨(i 0).val * 8 + (i 1).val / 512, hN⟩, flush2_8 _, ?_⟩
  rw [mem_blk8]
  obtain ⟨-, -, -, -, -, -, -, -, -, -, -, -, -, -, -, -, -, -, -, -, e80, e81, e82⟩ := idx_facts2 ⟨(i 0).val * 8 + (i 1).val / 512, hN⟩
  intro a
  match a with
  | ⟨0, _⟩ =>
    show win2_8.index ⟨(i 0).val * 8 + (i 1).val / 512, hN⟩ (0 : Fin 3) * 1 ≤ (i 0).val ∧ (i 0).val < win2_8.index ⟨(i 0).val * 8 + (i 1).val / 512, hN⟩ (0 : Fin 3) * 1 + 1
    rw [show win2_8.index ⟨(i 0).val * 8 + (i 1).val / 512, hN⟩ (0 : Fin 3) = ((i 0).val * 8 + (i 1).val / 512) / 8 from e80]; constructor <;> omega
  | ⟨1, _⟩ =>
    show win2_8.index ⟨(i 0).val * 8 + (i 1).val / 512, hN⟩ (1 : Fin 3) * 512 ≤ (i 1).val ∧ (i 1).val < win2_8.index ⟨(i 0).val * 8 + (i 1).val / 512, hN⟩ (1 : Fin 3) * 512 + 512
    rw [show win2_8.index ⟨(i 0).val * 8 + (i 1).val / 512, hN⟩ (1 : Fin 3) = ((i 0).val * 8 + (i 1).val / 512) % 8 from e81]; constructor <;> omega
  | ⟨2, _⟩ =>
    show win2_8.index ⟨(i 0).val * 8 + (i 1).val / 512, hN⟩ (2 : Fin 3) * 1024 ≤ (i 2).val ∧ (i 2).val < win2_8.index ⟨(i 0).val * 8 + (i 1).val / 512, hN⟩ (2 : Fin 3) * 1024 + 1024
    rw [e82]; constructor <;> omega

/-- After the launch the output array is outArr of the arrays it found. -/
theorem final2 (c : Dev nD) : (dat2 V c).arrAt 8 cfg2.N = outArr V c :=
  (dat2 V c).arrAt_eq_of_cover 8 (outArr V c) (fun t _ => flushed8_eq V c t) cover8

end Cert.KernelIdeal.Final2

end
-- ==== Proof.Chain.lean ====
/-
  The three launches composed: the kernel's result array as the specification of the ten arguments.

  The first launch leaves the array of logits of the normalised, twice linearly mapped rows; the second reads that array
  and leaves its column maxima and column sums of exponentials; the third reads all three, the input and the last two
  weights, and leaves the output. No launch and no host operation writes an array a later launch reads except through
  these three results, so each buffer a launch finds is either a launch's result, or what the host operations before the
  first launch left, or an argument as launched.
-/
import proofs.«172186_j39152921870436_2_alg».proof.Proof.Gen.KernelIdeal.Frame
import proofs.«172186_j39152921870436_2_alg».proof.Proof.Spec
import proofs.«172186_j39152921870436_2_alg».proof.Proof.Entry
import proofs.«172186_j39152921870436_2_alg».proof.Proof.Final0
import proofs.«172186_j39152921870436_2_alg».proof.Proof.Final1
import proofs.«172186_j39152921870436_2_alg».proof.Proof.Final2

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.Amu

variable (m : (ℓ : Loc nD τ sig) → Buf (Elt Ideal) ℓ) (ρ : Dev nD → PrngReg)

/-! ## What the second and third launches find -/

/-- The logits the second launch finds are the first launch's result. -/
theorem v2_v13 (c : Dev nD) : (V2 m ρ c main_v13 : S8x4096x128.Idx → EReal) = Final0.logitArr (V1 m ρ) c :=
  (W2_arr m ρ c 6).trans (Final0.final0 (V1 m ρ) c)

/-- The third launch finds them too: the second launch only reads them. -/
theorem v3_v13 (c : Dev nD) : (V3 m ρ c main_v13 : S8x4096x128.Idx → EReal) = Final0.logitArr (V1 m ρ) c :=
  ((W3_arr m ρ c 0).trans (((dat1 (V2 m ρ) c).arrAt_in 0 rfl _).trans (A_eq1 (V2 m ρ) c 0))).trans (v2_v13 m ρ c)

/-- The maxima and the sums the third launch finds are the second launch's results. -/
theorem v3_v14_0 (c : Dev nD) : (V3 m ρ c main_v14_0 : S8x1x128.Idx → EReal) = Final1.maxArr (V2 m ρ) c :=
  (W3_arr m ρ c 1).trans (Final1.final1 (V2 m ρ) c)
theorem v3_v14_1 (c : Dev nD) : (V3 m ρ c main_v14_1 : S8x1x128.Idx → EReal) = Final1.sumArr (V2 m ρ) c :=
  (W3_arr m ρ c 2).trans (Final1.final2 (V2 m ρ) c)

/-- The input array is as launched when the third launch reads it. -/
theorem v3_arg0 (c : Dev nD) : (V3 m ρ c main_arg0 : S8x4096x1024.Idx → EReal) = m ((c.tc : Thread nD τ).loc main_arg0) :=
  (W3_of_ne m ρ c main_arg0 (by decide)).trans
    (((W2_arr m ρ c 0).trans (((dat0 (V1 m ρ) c).arrAt_in 0 rfl _).trans (A_eq0 (V1 m ρ) c 0))).trans (Entry.v1_arg0 m ρ c))

/-- A buffer neither launch writes is, for the third launch, what the host operations left. -/
theorem v3_v10 (c : Dev nD) : V3 m ρ c main_v10 = V1 m ρ c main_v10 :=
  (W3_of_ne m ρ c main_v10 (by decide)).trans (W2_of_ne m ρ c main_v10 (by decide))
theorem v3_v12 (c : Dev nD) : V3 m ρ c main_v12 = V1 m ρ c main_v12 :=
  (W3_of_ne m ρ c main_v12 (by decide)).trans (W2_of_ne m ρ c main_v12 (by decide))
theorem v3_v3 (c : Dev nD) : V3 m ρ c main_v3 = V1 m ρ c main_v3 :=
  (W3_of_ne m ρ c main_v3 (by decide)).trans (W2_of_ne m ρ c main_v3 (by decide))
theorem v3_v4 (c : Dev nD) : V3 m ρ c main_v4 = V1 m ρ c main_v4 :=
  (W3_of_ne m ρ c main_v4 (by decide)).trans (W2_of_ne m ρ c main_v4 (by decide))

/-! ## The first launch's result is the specification's logits -/

theorem logitArr_eq (c : Dev nD) : Final0.logitArr (V1 m ρ) c
    = arr3 (logits (cur3 (m ((c.tc : Thread nD τ).loc main_arg0))) (cur1 (m ((c.tc : Thread nD τ).loc main_arg1))) (cur1 (m ((c.tc : Thread nD τ).loc main_arg2))) (cur2 (m ((c.tc : Thread nD τ).loc main_arg3)))
        (cur1 (m ((c.tc : Thread nD τ).loc main_arg4))) (cur2 (m ((c.tc : Thread nD τ).loc main_arg5)))) := by
  unfold Final0.logitArr
  simp only [Entry.v1_arg0 m ρ c, Entry.v1_v0_apply m ρ c, Entry.v1_v1_apply m ρ c, Entry.v1_v6_apply m ρ c, Entry.v1_v2_apply m ρ c,
    Entry.v1_v8_apply m ρ c]
  rfl

/-! ## The result -/

/-- After the three launches the result array is the specification of the arguments. -/
theorem result_eq (c : Dev nD) : (W4 m ρ c (Proc.devRef .tc main_v15) : S8x4096x1024.Idx → EReal)
    = arr3 (out (cur3 (m ((c.tc : Thread nD τ).loc main_arg0))) (cur1 (m ((c.tc : Thread nD τ).loc main_arg1))) (cur1 (m ((c.tc : Thread nD τ).loc main_arg2))) (cur2 (m ((c.tc : Thread nD τ).loc main_arg3)))
        (cur1 (m ((c.tc : Thread nD τ).loc main_arg4))) (cur2 (m ((c.tc : Thread nD τ).loc main_arg5))) (cur2 (m ((c.tc : Thread nD τ).loc main_arg6))) (cur2 (m ((c.tc : Thread nD τ).loc main_arg7)))
        (cur1 (m ((c.tc : Thread nD τ).loc main_arg8))) (cur1 (m ((c.tc : Thread nD τ).loc main_arg9)))) := by
  refine ((W4_arr m ρ c 8).trans (Final2.final2 (V3 m ρ) c)).trans ?_
  unfold Final2.outArr
  simp only [v3_v13 m ρ c, v3_v14_0 m ρ c, v3_v14_1 m ρ c, v3_arg0 m ρ c, v3_v10 m ρ c, v3_v12 m ρ c, v3_v3 m ρ c, v3_v4 m ρ c,
    Entry.v1_v10_apply m ρ c, Entry.v1_v12_apply m ρ c, Entry.v1_v3_apply m ρ c, Entry.v1_v4_apply m ρ c]
  unfold Final1.maxArr Final1.sumArr
  simp only [v2_v13 m ρ c, logitArr_eq m ρ c, arr3_ix3]
  rfl

end Cert.KernelIdeal.Chain

end
-- ==== Proof.lean ====
/-
  The certificate of an external-attention block: layer normalisation, two linear maps to 128 logits per position, a softmax
  of each logit column over the 4096 positions of a batch entry, an L1 normalisation of each position's 128 entries, two
  more linear maps, a second layer normalisation, the input added back and the positive part.

  The kernel computes it in three launches (the logits, block of 512 positions by block; the column maxima and column sums
  of exponentials, batch entry by batch entry; the output, block by block); the reference computes it as one chain of
  whole-array operations. On the extended reals both are the same function of the ten arguments, written once, row by
  row, in Spec.lean: every operation is the same on both sides, only the order in which sums and maxima are taken
  differs, and on the extended reals a finite sum and a finite maximum do not depend on that order. So no finiteness of
  the inputs is used.

  The modules: Spec (the function), BodyA / BodyB / BodyC (what each launch's body leaves in its output block, read at an
  index), Final0 / Final1 / Final2 (from blocks to whole arrays), Entry (what the host operations before the first launch
  leave), RunAll (the kernel's run with its result named), Chain (the three launches composed), RefValue (the reference's
  result is the function).
-/
import proofs.«172186_j39152921870436_2_alg».proof.Defs
import proofs.«172186_j39152921870436_2_alg».proof.Proof.Gen.Kernel
import proofs.«172186_j39152921870436_2_alg».proof.Proof.Gen.Kernel.Skeleton
import proofs.«172186_j39152921870436_2_alg».proof.Proof.Gen.Kernel.Launch
import proofs.«172186_j39152921870436_2_alg».proof.Proof.Gen.Kernel.Points
import proofs.«172186_j39152921870436_2_alg».proof.Proof.Gen.Kernel.Frame
import proofs.«172186_j39152921870436_2_alg».proof.Proof.Gen.KernelIdeal
import proofs.«172186_j39152921870436_2_alg».proof.Proof.Gen.KernelIdeal.Skeleton
import proofs.«172186_j39152921870436_2_alg».proof.Proof.Gen.KernelIdeal.Launch
import proofs.«172186_j39152921870436_2_alg».proof.Proof.Gen.KernelIdeal.Points
import proofs.«172186_j39152921870436_2_alg».proof.Proof.Gen.KernelIdeal.Frame
import proofs.«172186_j39152921870436_2_alg».proof.Proof.Gen.ReferenceIdeal
import proofs.«172186_j39152921870436_2_alg».proof.Proof.Gen.Pre_finite_inputs
import proofs.«172186_j39152921870436_2_alg».proof.Proof.RefRunP
import proofs.«172186_j39152921870436_2_alg».proof.Proof.RefReadP
import proofs.«172186_j39152921870436_2_alg».proof.Proof.RefValue
import proofs.«172186_j39152921870436_2_alg».proof.Proof.RunAll
import proofs.«172186_j39152921870436_2_alg».proof.Proof.Chain
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the specification of the arguments in their
    result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Amu.arr3 (Cert.Amu.out (Cert.Amu.cur3 (m ((c.tc : Thread Cert.KernelIdeal.nD Cert.KernelIdeal.τ).loc Cert.KernelIdeal.main_arg0))) (Cert.Amu.cur1 (m ((c.tc : Thread Cert.KernelIdeal.nD Cert.KernelIdeal.τ).loc Cert.KernelIdeal.main_arg1)))
      (Cert.Amu.cur1 (m ((c.tc : Thread Cert.KernelIdeal.nD Cert.KernelIdeal.τ).loc Cert.KernelIdeal.main_arg2))) (Cert.Amu.cur2 (m ((c.tc : Thread Cert.KernelIdeal.nD Cert.KernelIdeal.τ).loc Cert.KernelIdeal.main_arg3))) (Cert.Amu.cur1 (m ((c.tc : Thread Cert.KernelIdeal.nD Cert.KernelIdeal.τ).loc Cert.KernelIdeal.main_arg4)))
      (Cert.Amu.cur2 (m ((c.tc : Thread Cert.KernelIdeal.nD Cert.KernelIdeal.τ).loc Cert.KernelIdeal.main_arg5))) (Cert.Amu.cur2 (m ((c.tc : Thread Cert.KernelIdeal.nD Cert.KernelIdeal.τ).loc Cert.KernelIdeal.main_arg6))) (Cert.Amu.cur2 (m ((c.tc : Thread Cert.KernelIdeal.nD Cert.KernelIdeal.τ).loc Cert.KernelIdeal.main_arg7)))
      (Cert.Amu.cur1 (m ((c.tc : Thread Cert.KernelIdeal.nD Cert.KernelIdeal.τ).loc Cert.KernelIdeal.main_arg8))) (Cert.Amu.cur1 (m ((c.tc : Thread Cert.KernelIdeal.nD Cert.KernelIdeal.τ).loc Cert.KernelIdeal.main_arg9)))), ?_, ?_⟩
  · exact (θ_run Cert.KernelIdeal.defs _ _).mono
      (fun _ h c => ⟨(h c).1.trans (Cert.KernelIdeal.Chain.result_eq m ρ c), (h c).2⟩)
      (Cert.KernelIdeal.RunAll.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
